-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S128 .f32) (main_arg7 : FVec F S128x40 .f32) (main_arg8 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg7
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x40 .f32) (main_arg8 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩
abbrev S1x40 : Shape := ⟨2, ![1, 40]⟩
abbrev S50000x40 : Shape := ⟨2, ![50000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 54
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S1x128, .f32⟩
  | .hbm, ⟨23, _⟩ => ⟨S50000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S1x40, .f32⟩
  | .hbm, ⟨53, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x40, .f32⟩
  | .local _ .vmem, ⟨15, _⟩ => ⟨S1x40, .f32⟩
  | .local _ .vmem, ⟨16, _⟩ => ⟨S5000x40, .f32⟩
  | .local _ .vmem, ⟨17, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S50000x40.size a
  hwx2_3 : ∀ i : grid2.Coords, EltTy.bits .f32 = 32 ∨ (Rect.block (s := S50000x40) S5000x40.size (cc2_transform_3 i) (hinb2_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v33) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x40 : Shape := ⟨2, ![50000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S_, .f32⟩
  | .hbm, ⟨27, _⟩ => ⟨S50000x128, .f32⟩
  | .hbm, ⟨28, _⟩ => ⟨S50000x128, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S50000x40, .f32⟩
  | .hbm, ⟨63, _⟩ => ⟨S1x40, .f32⟩
  | .hbm, ⟨64, _⟩ => ⟨S50000x40, .f32⟩
  | .hbm, ⟨65, _⟩ => ⟨S50000x40, .f32⟩
  | .hbm, ⟨66, _⟩ => ⟨S_, .f32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x40, .f32⟩
  | .hbm, ⟨73, _⟩ => ⟨S50000x40, .f32⟩
  | .hbm, ⟨74, _⟩ => ⟨S50000x40, .f32⟩
  | .hbm, ⟨75, _⟩ => ⟨S_, .f32⟩
  | .hbm, ⟨76, _⟩ => ⟨S50000, .f32⟩
  | .hbm, ⟨77, _⟩ => ⟨S50000x1, .f32⟩
  | .hbm, ⟨78, _⟩ => ⟨S50000x1, .f32⟩
  | .hbm, ⟨79, _⟩ => ⟨S50000x40, .f32⟩
  | .hbm, ⟨80, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_cst : Ref sig .tc := ⟨.hbm, 26, rfl⟩
abbrev main_call0_v0 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call1_cst : Ref sig .tc := ⟨.hbm, 46, rfl⟩
abbrev main_call1_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call2_cst : Ref sig .tc := ⟨.hbm, 66, rfl⟩
abbrev main_call2_v0 : Ref sig .tc := ⟨.hbm, 67, rfl⟩
abbrev main_call2_cst_0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_cst_1 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_v44 : Ref sig .tc := ⟨.hbm, 80, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«119418_j73332271612561_1_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«119418_j73332271612561_1_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.LibLogSoftmax.lean ====
/-
  The logarithm of a row softmax on the extended reals, over rank-2 arrays of any extents.

  `rowMax X p` is the maximum of row `p` taken from −∞; `lsm X` is the row-wise log-softmax in its shifted form,
  `lsm X (p, q) = (X(p, q) − M p) − log (∑ k, exp (X(p, k) − M p))` with `M p = rowMax X p`.  The vector unit spells it
  with lane reductions along the second axis (a maximum from −∞, a sum from 0), the reduced vectors cast to a column and
  the column broadcast along the rows; the host with reductions along the second axis, one more maximum with −∞
  (which changes nothing), and `broadcast_in_dim` to a column and to the array.  Both are `lsm`.  The entry at
  `(p, q)` depends on row `p` of `X` only (`lsm_rows`).
-/
import Idealize.ShloMosaic.PureOps.Ideal.Laws
import Idealize.ShloMosaic.Lib.ValueIdx
import Idealize.ShloMosaic.Lib.ValueLayout
import Idealize.ShloMosaic.Lib.Pipeline.Value
import proofs.«119418_j73332271612561_1_alg».proof.Proof.LibDense
import proofs.«119418_j73332271612561_1_alg».proof.Proof.LibRowBlocks
import proofs.«119418_j73332271612561_1_alg».proof.Proof.LibHostLayout

noncomputable section

open scoped BigOperators

namespace Cert.LogSoftmax

open Idealize.ShloMosaic Idealize.ShloMosaic.ValueIdx Cert.Dense

/-- −∞ as the float pattern both programs spell it with. -/
abbrev negInf : EReal := Ideal.ofBits .f32 0xFF800000#32

/-- The maximum with −∞ on the left changes nothing. -/
theorem max_negInf (y : EReal) : max negInf y = y := by
  show max (Ideal.ofBits .f32 0xFF800000#32) y = y
  simp [Ideal.ofBits, Ideal.ieee]

/-- The maximum of row `p`, from −∞. -/
def rowMax {n c : ℕ} (X : Mat n c) (p : Fin n) : EReal :=
  (Finset.univ : Finset (Fin c)).fold max negInf (fun k => X (ix2 p k))

/-- The row-wise log-softmax, shifted by the row maximum. -/
def lsm {n c : ℕ} (X : Mat n c) : Mat n c :=
  fun i => (X i - rowMax X (c0 i)) - Ideal.log (∑ k : Fin c, Ideal.exp (X (ix2 (c0 i) k) - rowMax X (c0 i)))

theorem lsm_apply {n c : ℕ} (X : Mat n c) (p : Fin n) (q : Fin c) :
    lsm X (ix2 p q) = (X (ix2 p q) - rowMax X p) - Ideal.log (∑ k : Fin c, Ideal.exp (X (ix2 p k) - rowMax X p)) := rfl

/-- The row maximum depends on the row only. -/
theorem rowMax_rows {n n' c : ℕ} (X : Mat n c) (X' : Mat n' c) (p : Fin n) (p' : Fin n')
    (h : ∀ k, X' (ix2 p' k) = X (ix2 p k)) : rowMax X' p' = rowMax X p := by
  unfold rowMax
  exact congrArg (fun f => Finset.fold max negInf f (Finset.univ : Finset (Fin c))) (funext h)

/-- Row `p'` of the log-softmax of `X'` is row `p` of that of `X` when the two rows agree. -/
theorem lsm_rows {n n' c : ℕ} (X : Mat n c) (X' : Mat n' c) (p : Fin n) (p' : Fin n')
    (h : ∀ k, X' (ix2 p' k) = X (ix2 p k)) (q : Fin c) : lsm X' (ix2 p' q) = lsm X (ix2 p q) := by
  simp only [lsm_apply, rowMax_rows X X' p p' h, h]

/-- The reduced index `p` with column `k` put back is `(p, k)`. -/
theorem lift_row {n c : ℕ} (h : (⟨2, ![n, c]⟩ : Shape).Reduces [1] (⟨1, ![n]⟩ : Shape)) (p : Fin n)
    (k : Fin ((⟨2, ![n, c]⟩ : Shape).size 1)) : h.lift (ix1 p) k = ix2 p (⟨k.val, k.isLt⟩ : Fin c) := by
  funext a; apply Fin.ext
  match a with
  | ⟨0, _⟩ => rfl
  | ⟨1, _⟩ => rfl

/-- The vector unit's lane maximum from −∞ along the second axis reads, at row `p`, the row's maximum. -/
theorem vecRowMax {n c : ℕ} (X : FVec Ideal ⟨2, ![n, c]⟩ .f32)
    (h : (⟨2, ![n, c]⟩ : Shape).Reduces [1] ⟨1, ![n]⟩) (hφ : FKind.Formats .f32)
    (hacc : (0xFF800000#32 : BitVec 32) = FKind.maximumf.neutral .f32 hφ) (p : Fin n) :
    multiReduction .maximumf [1] ⟨1, ![n]⟩ X 0xFF800000#32 h hφ hacc (ix1 p) = rowMax X p := by
  rw [Ideal.multiReduction_maximumf_single X 0xFF800000#32 h hφ hacc (ix1 p)]
  have hf : (X ∘ h.lift (ix1 p)) = fun k : Fin c => X (ix2 p k) := funext fun k => congrArg X (lift_row h p k)
  exact congrArg (fun f => Finset.fold max (Ideal.ofBits .f32 0xFF800000#32) f (Finset.univ : Finset (Fin c))) hf

/-- The host's maximum reduction from −∞ along the second axis reads, at row `p`, the row's maximum. -/
theorem hostRowMax {n c : ℕ} (X : FVec Ideal ⟨2, ![n, c]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (p : Fin n) :
    Host.reduce FloatOps.maximumf X (constant (F := Ideal) (⟨0, ![]⟩ : Shape) .f32 0xFF800000#32) h' hu (ix1 p) = rowMax X p := by
  rw [Host.reduce_eq_fold_single FloatOps.maximumf X _ h' h hu]
  have hf : (X ∘ h.lift (ix1 p)) = fun k : Fin c => X (ix2 p k) := funext fun k => congrArg X (lift_row h p k)
  exact congrArg (fun f => Finset.fold max (Ideal.ofBits .f32 0xFF800000#32) f (Finset.univ : Finset (Fin c))) hf

/-- A scalar broadcast to a vector reads the scalar everywhere. -/
theorem bcast_scalar_vec {α : Type} {n : ℕ} (x : (⟨0, ![]⟩ : Shape).Idx → α)
    (h : (⟨0, ![]⟩ : Shape).BroadcastsInDim ⟨1, ![n]⟩ ![]) (p : Fin n) :
    broadcastInDim ⟨1, ![n]⟩ ![] h x (ix1 p) = x ix0 :=
  broadcastInDim_apply ![] h x (ix1 p) ix0 fun a => a.elim0

/-- The shifted form assembled from its parts: an array `Mx` holding every row's maximum along that row, and an array
    `L` holding along every row the logarithm of the row's sum of `exp (X − Mx)`. -/
theorem lsm_of_parts {n c : ℕ} (X Mx L : Mat n c) (hM : ∀ p k, Mx (ix2 p k) = rowMax X p)
    (hL : ∀ p k, L (ix2 p k) = Ideal.log (∑ j : Fin c, Ideal.exp (X (ix2 p j) - Mx (ix2 p j)))) :
    (fun i => (X i - Mx i) - L i) = lsm X := by
  funext i
  obtain ⟨p, q, rfl⟩ : ∃ (p : Fin n) (q : Fin c), i = ix2 p q := ⟨i 0, i 1, eq_ix2 i⟩
  show (X (ix2 p q) - Mx (ix2 p q)) - L (ix2 p q) = _
  rw [hL, hM, lsm_apply]
  refine congrArg (fun s => (X (ix2 p q) - rowMax X p) - Ideal.log s) (Finset.sum_congr rfl fun k _ => ?_)
  rw [hM]

/-- The vector unit's row maxima, cast to a column and broadcast along the rows. -/
theorem vecColMax {n c : ℕ} (X : FVec Ideal ⟨2, ![n, c]⟩ .f32)
    (h : (⟨2, ![n, c]⟩ : Shape).Reduces [1] ⟨1, ![n]⟩) (hφ : FKind.Formats .f32)
    (haccM : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, c]⟩)
    (p : Fin n) (k : Fin c) :
    broadcastTo ⟨2, ![n, c]⟩ (shapeCast ⟨2, ![n, 1]⟩ (multiReduction .maximumf [1] ⟨1, ![n]⟩ X 0xFF800000#32 h hφ haccM) hc) hb (ix2 p k)
      = rowMax X p := by
  rw [Cert.RowBlocks.broadcastTo_col_apply, Cert.RowBlocks.shapeCast_col_apply, vecRowMax]

/-- The vector unit's row sums of `exp`, cast to a column, the logarithm taken and broadcast along the rows. -/
theorem vecColLogSum {n c : ℕ} (E : FVec Ideal ⟨2, ![n, c]⟩ .f32)
    (h : (⟨2, ![n, c]⟩ : Shape).Reduces [1] ⟨1, ![n]⟩) (hφ : FKind.Formats .f32)
    (haccS : (0x00000000#32 : BitVec 32) = 0x00000000#32)
    (hc : (⟨1, ![n]⟩ : Shape).ShapeCasts ⟨2, ![n, 1]⟩) (hb : (⟨2, ![n, 1]⟩ : Shape).Broadcasts ⟨2, ![n, c]⟩)
    (p : Fin n) (k : Fin c) :
    broadcastTo ⟨2, ![n, c]⟩ (log (shapeCast ⟨2, ![n, 1]⟩ (multiReduction .add [1] ⟨1, ![n]⟩ E 0x00000000#32 h hφ haccS) hc)) hb (ix2 p k)
      = Ideal.log (∑ j : Fin c, E (ix2 p j)) := by
  rw [Cert.RowBlocks.broadcastTo_col_apply]
  show Ideal.log _ = _
  rw [Cert.RowBlocks.shapeCast_col_apply, Cert.RowBlocks.rowSum_apply]

/-- The host's row maxima (from −∞, once more against −∞), broadcast to a column and the column to the array. -/
theorem hostColMax {n c : ℕ} (X : FVec Ideal ⟨2, ![n, c]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel)
    (hb0 : (⟨0, ![]⟩ : Shape).BroadcastsInDim ⟨1, ![n]⟩ ![])
    (hb1 : (⟨1, ![n]⟩ : Shape).BroadcastsInDim ⟨2, ![n, 1]⟩ ![0])
    (hb2 : (⟨2, ![n, 1]⟩ : Shape).BroadcastsInDim ⟨2, ![n, c]⟩ ![0, 1]) (p : Fin n) (k : Fin c) :
    broadcastInDim ⟨2, ![n, c]⟩ ![0, 1] hb2 (broadcastInDim ⟨2, ![n, 1]⟩ ![0] hb1
        (maximumf (broadcastInDim ⟨1, ![n]⟩ ![] hb0 (constant (F := Ideal) ⟨0, ![]⟩ .f32 0xFF800000#32))
          (Host.reduce FloatOps.maximumf X (constant (F := Ideal) ⟨0, ![]⟩ .f32 0xFF800000#32) h' hu))) (ix2 p k)
      = rowMax X p := by
  rw [Cert.HostLayout.bcast_col_mat, Cert.HostLayout.bcast_vec_col]
  show max (broadcastInDim ⟨1, ![n]⟩ ![] hb0 (constant (F := Ideal) ⟨0, ![]⟩ .f32 0xFF800000#32) (ix1 p))
      (Host.reduce FloatOps.maximumf X (constant (F := Ideal) ⟨0, ![]⟩ .f32 0xFF800000#32) h' hu (ix1 p)) = _
  rw [bcast_scalar_vec, hostRowMax X h' h hu p]
  exact max_negInf _

/-- The host's row sums (from 0), broadcast to a column, the logarithm taken and the column broadcast to the array. -/
theorem hostColLogSum {n c : ℕ} (E : FVec Ideal ⟨2, ![n, c]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel)
    (hb1 : (⟨1, ![n]⟩ : Shape).BroadcastsInDim ⟨2, ![n, 1]⟩ ![0])
    (hb2 : (⟨2, ![n, 1]⟩ : Shape).BroadcastsInDim ⟨2, ![n, c]⟩ ![0, 1]) (p : Fin n) (k : Fin c) :
    broadcastInDim ⟨2, ![n, c]⟩ ![0, 1] hb2 (Host.log (broadcastInDim ⟨2, ![n, 1]⟩ ![0] hb1
        (Host.reduceAdd E (constant (F := Ideal) ⟨0, ![]⟩ .f32 0x00000000#32) h' hu))) (ix2 p k)
      = Ideal.log (∑ j : Fin c, E (ix2 p j)) := by
  rw [Cert.HostLayout.bcast_col_mat]
  show Ideal.log _ = _
  rw [Cert.HostLayout.bcast_vec_col, Cert.HostLayout.hostRowSum _ _ h' h hu p]
  have h0 : (constant (F := Ideal) (⟨0, ![]⟩ : Shape) .f32 0x00000000#32) (Shape.Idx.first hu) = 0 := Ideal.ofBits_zero_f32
  rw [h0, zero_add]

end Cert.LogSoftmax

end
-- ==== Proof.Spec.lean ====
/-
  The network both programs compute, as one function of the argument arrays on the extended reals.

  A graph convolution over 50000 nodes and 800000 edges: `agg h` gathers, for every edge, the row of `h` at the
  edge's source node (a negative index counted from the end) and adds it into the row of the edge's destination node,
  from zero.  Both programs spell the gather and the scatter-add with the same host operations, so `agg` is stated
  over those operations and never opened.  Three layers follow one another:
  `h₁ = max (agg x · W₁ + b₁, 0)`, `h₂ = max (agg h₁ · Wₘ + bₘ, 0)`, and the result is the row-wise log-softmax of
  `agg h₂ · W₂ + b₂`.
-/
import Idealize.ShloMosaic.PureOps
import Idealize.ShloMosaic.PureOps.Ideal.Laws
import proofs.«119418_j73332271612561_1_alg».proof.Proof.LibDense
import proofs.«119418_j73332271612561_1_alg».proof.Proof.LibBiasRow
import proofs.«119418_j73332271612561_1_alg».proof.Proof.LibLogSoftmax

noncomputable section

namespace Cert.Net

open Idealize.ShloMosaic Idealize.ShloMosaic.ValueIdx Cert.Dense Cert.BiasRow Cert.LogSoftmax

abbrev SNodes : Shape := ⟨2, ![50000, 128]⟩
abbrev SEdges : Shape := ⟨1, ![800000]⟩
abbrev SEdgeCol : Shape := ⟨2, ![800000, 1]⟩
abbrev SMsgs : Shape := ⟨2, ![800000, 128]⟩
abbrev S0 : Shape := ⟨0, ![]⟩

/-- The shape facts and dimension records the aggregation's host operations are stated with. -/
structure AggFacts where
  gat : GatherDims SNodes SEdgeCol SMsgs
  sca : ScatterDims SNodes SEdgeCol SMsgs
  hbE : S0.BroadcastsInDim SEdges ![]
  hbC : SEdges.BroadcastsInDim SEdgeCol ![0]
  hbN : S0.BroadcastsInDim SNodes ![]

/-- The neighbourhood sum: for every edge the source node's row (a negative source index counted from the end), added
    into the destination node's row, from zero. -/
def agg (A : AggFacts) (h : FVec Ideal SNodes .f32) (src dst : IVec SEdges 32) : FVec Ideal SNodes .f32 :=
  Host.scatterAdd A.sca (broadcastInDim SNodes ![] A.hbN (constant (F := Ideal) S0 .f32 0x00000000#32))
    (broadcastInDim SEdgeCol ![0] A.hbC dst)
    (Host.gather A.gat h (broadcastInDim SEdgeCol ![0] A.hbC
      (select (cmpi .slt src (broadcastInDim SEdges ![] A.hbE (constantI S0 32 0#32)))
        (addi src (broadcastInDim SEdges ![] A.hbE (constantI S0 32 50000#32))) src)))

/-- The whole network. -/
def net (A : AggFacts) (x : Mat 50000 128) (src dst : IVec SEdges 32) (W1 : Mat 128 128) (b1 : Mat 1 128)
    (Wm : Mat 128 128) (bm : Mat 1 128) (W2 : Mat 128 40) (b2 : Mat 1 40) : Mat 50000 40 :=
  lsm (addRow (mm (agg A (act (agg A (act (agg A x src dst) W1 b1) src dst) Wm bm) src dst) W2) b2)

end Cert.Net

end
-- ==== Proof.RefRun.lean ====
/-
  The reference's run, read back: @main as the list of its host operations, every weakly fair execution ending
  with each buffer at the operations' results folded over the launch contents, and that fold evaluated layer by layer —
  each layer's operations applied to ANY buffer contents give the layer of `Cert.Net` of the contents they read.
-/
import proofs.«119418_j73332271612561_1_alg».proof.Proof.Gen.ReferenceIdeal
import Idealize.ShloMosaic.Lib.StableHlo.Run
import proofs.«119418_j73332271612561_1_alg».proof.Proof.Spec

noncomputable section

namespace Cert.ReferenceIdeal.RunOut

open Cert.ReferenceIdeal Cert.ReferenceIdeal.Gen Idealize.ShloMosaic Idealize.ShloMosaic.TcCoe Idealize.SL.Sem Idealize.ShloMosaic.StableHlo
open Cert.Dense Cert.BiasRow Cert.LogSoftmax Cert.Net

variable {F : FTy → Type} [FloatOps F]

/-- The first layer's operations. -/
abbrev ops1 : List (HloOp τ sig (Elt F)) :=
  [ nullary main_c (constantI S_ 32 0#32),
    unary main_c main_v0 (broadcastInDim S800000 ![] bcast_S_S800000 : (⟨S_, .i32⟩ : BufTy).Contents (Elt F) → (⟨S800000, .i32⟩ : BufTy).Contents (Elt F)),
    binary main_arg1 main_v0 main_v1 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v2 (broadcastInDim S800000 ![] bcast_S_S800000 : (⟨S_, .i32⟩ : BufTy).Contents (Elt F) → (⟨S800000, .i32⟩ : BufTy).Contents (Elt F)),
    binary main_arg1 main_v2 main_v3 (addi : (⟨S800000, .i32⟩ : BufTy).Contents (Elt F) → (⟨S800000, .i32⟩ : BufTy).Contents (Elt F) → (⟨S800000, .i32⟩ : BufTy).Contents (Elt F)),
    ternary main_v1 main_v3 main_arg1 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v4 main_v5 (broadcastInDim S800000x1 ![0] bcast_S800000_S800000x1_0 : (⟨S800000, .i32⟩ : BufTy).Contents (Elt F) → (⟨S800000x1, .i32⟩ : BufTy).Contents (Elt F)),
    binary main_arg0 main_v5 main_v6 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v7 (broadcastInDim S50000x128 ![] bcast_S_S50000x128 : (⟨S_, .f32⟩ : BufTy).Contents (Elt F) → (⟨S50000x128, .f32⟩ : BufTy).Contents (Elt F)),
    unary main_arg2 main_v8 (broadcastInDim S800000x1 ![0] bcast_S800000_S800000x1_0 : (⟨S800000, .i32⟩ : BufTy).Contents (Elt F) → (⟨S800000x1, .i32⟩ : BufTy).Contents (Elt F)),
    ternary main_v7 main_v8 main_v6 main_v9 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v9 main_arg3 main_v10 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v11 (broadcastInDim S1x128 ![1] bcast_S128_S1x128_1 : (⟨S128, .f32⟩ : BufTy).Contents (Elt F) → (⟨S1x128, .f32⟩ : BufTy).Contents (Elt F)),
    unary main_v11 main_v12 (broadcastInDim S50000x128 ![0, 1] bcast_S1x128_S50000x128_0_1 : (⟨S1x128, .f32⟩ : BufTy).Contents (Elt F) → (⟨S50000x128, .f32⟩ : BufTy).Contents (Elt F)),
    binary main_v10 main_v12 main_v13 (addf : (⟨S50000x128, .f32⟩ : BufTy).Contents (Elt F) → (⟨S50000x128, .f32⟩ : BufTy).Contents (Elt F) → (⟨S50000x128, .f32⟩ : BufTy).Contents (Elt F)),
    nullary main_call0_cst (constant S_ .f32 0x00000000#32 : (⟨S_, .f32⟩ : BufTy).Contents (Elt F)),
    unary main_call0_cst main_call0_v0 (broadcastInDim S50000x128 ![] bcast_S_S50000x128 : (⟨S_, .f32⟩ : BufTy).Contents (Elt F) → (⟨S50000x128, .f32⟩ : BufTy).Contents (Elt F)),
    binary main_v13 main_call0_v0 main_v14 (maximumf : (⟨S50000x128, .f32⟩ : BufTy).Contents (Elt F) → (⟨S50000x128, .f32⟩ : BufTy).Contents (Elt F) → (⟨S50000x128, .f32⟩ : BufTy).Contents (Elt F)) ]

/-- The second layer's operations. -/
abbrev ops2 : List (HloOp τ sig (Elt F)) :=
  [ nullary main_c_1 (constantI S_ 32 0#32),
    unary main_c_1 main_v15 (broadcastInDim S800000 ![] bcast_S_S800000 : (⟨S_, .i32⟩ : BufTy).Contents (Elt F) → (⟨S800000, .i32⟩ : BufTy).Contents (Elt F)),
    binary main_arg1 main_v15 main_v16 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v17 (broadcastInDim S800000 ![] bcast_S_S800000 : (⟨S_, .i32⟩ : BufTy).Contents (Elt F) → (⟨S800000, .i32⟩ : BufTy).Contents (Elt F)),
    binary main_arg1 main_v17 main_v18 (addi : (⟨S800000, .i32⟩ : BufTy).Contents (Elt F) → (⟨S800000, .i32⟩ : BufTy).Contents (Elt F) → (⟨S800000, .i32⟩ : BufTy).Contents (Elt F)),
    ternary main_v16 main_v18 main_arg1 main_v19 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v19 main_v20 (broadcastInDim S800000x1 ![0] bcast_S800000_S800000x1_0 : (⟨S800000, .i32⟩ : BufTy).Contents (Elt F) → (⟨S800000x1, .i32⟩ : BufTy).Contents (Elt F)),
    binary main_v14 main_v20 main_v21 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_3 (constant S_ .f32 0x00000000#32),
    unary main_cst_3 main_v22 (broadcastInDim S50000x128 ![] bcast_S_S50000x128 : (⟨S_, .f32⟩ : BufTy).Contents (Elt F) → (⟨S50000x128, .f32⟩ : BufTy).Contents (Elt F)),
    unary main_arg2 main_v23 (broadcastInDim S800000x1 ![0] bcast_S800000_S800000x1_0 : (⟨S800000, .i32⟩ : BufTy).Contents (Elt F) → (⟨S800000x1, .i32⟩ : BufTy).Contents (Elt F)),
    ternary main_v22 main_v23 main_v21 main_v24 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v24 main_arg5 main_v25 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v26 (broadcastInDim S1x128 ![1] bcast_S128_S1x128_1 : (⟨S128, .f32⟩ : BufTy).Contents (Elt F) → (⟨S1x128, .f32⟩ : BufTy).Contents (Elt F)),
    unary main_v26 main_v27 (broadcastInDim S50000x128 ![0, 1] bcast_S1x128_S50000x128_0_1 : (⟨S1x128, .f32⟩ : BufTy).Contents (Elt F) → (⟨S50000x128, .f32⟩ : BufTy).Contents (Elt F)),
    binary main_v25 main_v27 main_v28 (addf : (⟨S50000x128, .f32⟩ : BufTy).Contents (Elt F) → (⟨S50000x128, .f32⟩ : BufTy).Contents (Elt F) → (⟨S50000x128, .f32⟩ : BufTy).Contents (Elt F)),
    nullary main_call1_cst (constant S_ .f32 0x00000000#32 : (⟨S_, .f32⟩ : BufTy).Contents (Elt F)),
    unary main_call1_cst main_call1_v0 (broadcastInDim S50000x128 ![] bcast_S_S50000x128 : (⟨S_, .f32⟩ : BufTy).Contents (Elt F) → (⟨S50000x128, .f32⟩ : BufTy).Contents (Elt F)),
    binary main_v28 main_call1_v0 main_v29 (maximumf : (⟨S50000x128, .f32⟩ : BufTy).Contents (Elt F) → (⟨S50000x128, .f32⟩ : BufTy).Contents (Elt F) → (⟨S50000x128, .f32⟩ : BufTy).Contents (Elt F)) ]

/-- The third layer's aggregation, product and bias. -/
abbrev ops3 : List (HloOp τ sig (Elt F)) :=
  [ nullary main_c_4 (constantI S_ 32 0#32),
    unary main_c_4 main_v30 (broadcastInDim S800000 ![] bcast_S_S800000 : (⟨S_, .i32⟩ : BufTy).Contents (Elt F) → (⟨S800000, .i32⟩ : BufTy).Contents (Elt F)),
    binary main_arg1 main_v30 main_v31 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v32 (broadcastInDim S800000 ![] bcast_S_S800000 : (⟨S_, .i32⟩ : BufTy).Contents (Elt F) → (⟨S800000, .i32⟩ : BufTy).Contents (Elt F)),
    binary main_arg1 main_v32 main_v33 (addi : (⟨S800000, .i32⟩ : BufTy).Contents (Elt F) → (⟨S800000, .i32⟩ : BufTy).Contents (Elt F) → (⟨S800000, .i32⟩ : BufTy).Contents (Elt F)),
    ternary main_v31 main_v33 main_arg1 main_v34 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v34 main_v35 (broadcastInDim S800000x1 ![0] bcast_S800000_S800000x1_0 : (⟨S800000, .i32⟩ : BufTy).Contents (Elt F) → (⟨S800000x1, .i32⟩ : BufTy).Contents (Elt F)),
    binary main_v29 main_v35 main_v36 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_6 (constant S_ .f32 0x00000000#32),
    unary main_cst_6 main_v37 (broadcastInDim S50000x128 ![] bcast_S_S50000x128 : (⟨S_, .f32⟩ : BufTy).Contents (Elt F) → (⟨S50000x128, .f32⟩ : BufTy).Contents (Elt F)),
    unary main_arg2 main_v38 (broadcastInDim S800000x1 ![0] bcast_S800000_S800000x1_0 : (⟨S800000, .i32⟩ : BufTy).Contents (Elt F) → (⟨S800000x1, .i32⟩ : BufTy).Contents (Elt F)),
    ternary main_v37 main_v38 main_v36 main_v39 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v39 main_arg7 main_v40 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    unary main_arg8 main_v41 (broadcastInDim S1x40 ![1] bcast_S40_S1x40_1 : (⟨S40, .f32⟩ : BufTy).Contents (Elt F) → (⟨S1x40, .f32⟩ : BufTy).Contents (Elt F)),
    unary main_v41 main_v42 (broadcastInDim S50000x40 ![0, 1] bcast_S1x40_S50000x40_0_1 : (⟨S1x40, .f32⟩ : BufTy).Contents (Elt F) → (⟨S50000x40, .f32⟩ : BufTy).Contents (Elt F)),
    binary main_v40 main_v42 main_v43 (addf : (⟨S50000x40, .f32⟩ : BufTy).Contents (Elt F) → (⟨S50000x40, .f32⟩ : BufTy).Contents (Elt F) → (⟨S50000x40, .f32⟩ : BufTy).Contents (Elt F)) ]

/-- The row-wise log-softmax. -/
abbrev ops4 : List (HloOp τ sig (Elt F)) :=
  [ nullary main_call2_cst (constant S_ .f32 0xFF800000#32 : (⟨S_, .f32⟩ : BufTy).Contents (Elt F)),
    binary main_v43 main_call2_cst main_call2_v0 (fun x v => Host.reduce FloatOps.maximumf x v reducesTo_S50000x40_S50000_d1 h_S_ : (⟨S50000x40, .f32⟩ : BufTy).Contents (Elt F) → (⟨S_, .f32⟩ : BufTy).Contents (Elt F) → (⟨S50000, .f32⟩ : BufTy).Contents (Elt F)),
    nullary main_call2_cst_0 (constant S_ .f32 0xFF800000#32 : (⟨S_, .f32⟩ : BufTy).Contents (Elt F)),
    unary main_call2_cst_0 main_call2_v1 (broadcastInDim S50000 ![] bcast_S_S50000 : (⟨S_, .f32⟩ : BufTy).Contents (Elt F) → (⟨S50000, .f32⟩ : BufTy).Contents (Elt F)),
    binary main_call2_v1 main_call2_v0 main_call2_v2 (maximumf : (⟨S50000, .f32⟩ : BufTy).Contents (Elt F) → (⟨S50000, .f32⟩ : BufTy).Contents (Elt F) → (⟨S50000, .f32⟩ : BufTy).Contents (Elt F)),
    unary main_call2_v2 main_call2_v3 (broadcastInDim S50000x1 ![0] bcast_S50000_S50000x1_0 : (⟨S50000, .f32⟩ : BufTy).Contents (Elt F) → (⟨S50000x1, .f32⟩ : BufTy).Contents (Elt F)),
    unary main_call2_v3 main_call2_v4 (broadcastInDim S50000x40 ![0, 1] bcast_S50000x1_S50000x40_0_1 : (⟨S50000x1, .f32⟩ : BufTy).Contents (Elt F) → (⟨S50000x40, .f32⟩ : BufTy).Contents (Elt F)),
    binary main_v43 main_call2_v4 main_call2_v5 (subf : (⟨S50000x40, .f32⟩ : BufTy).Contents (Elt F) → (⟨S50000x40, .f32⟩ : BufTy).Contents (Elt F) → (⟨S50000x40, .f32⟩ : BufTy).Contents (Elt F)),
    unary main_call2_v5 main_call2_v6 (Host.exp : (⟨S50000x40, .f32⟩ : BufTy).Contents (Elt F) → (⟨S50000x40, .f32⟩ : BufTy).Contents (Elt F)),
    nullary main_call2_cst_1 (constant S_ .f32 0x00000000#32 : (⟨S_, .f32⟩ : BufTy).Contents (Elt F)),
    binary main_call2_v6 main_call2_cst_1 main_call2_v7 (fun x v => Host.reduceAdd x v reducesTo_S50000x40_S50000_d1 h_S_ : (⟨S50000x40, .f32⟩ : BufTy).Contents (Elt F) → (⟨S_, .f32⟩ : BufTy).Contents (Elt F) → (⟨S50000, .f32⟩ : BufTy).Contents (Elt F)),
    unary main_call2_v7 main_call2_v8 (broadcastInDim S50000x1 ![0] bcast_S50000_S50000x1_0 : (⟨S50000, .f32⟩ : BufTy).Contents (Elt F) → (⟨S50000x1, .f32⟩ : BufTy).Contents (Elt F)),
    unary main_call2_v8 main_call2_v9 (Host.log : (⟨S50000x1, .f32⟩ : BufTy).Contents (Elt F) → (⟨S50000x1, .f32⟩ : BufTy).Contents (Elt F)),
    unary main_call2_v9 main_call2_v10 (broadcastInDim S50000x40 ![0, 1] bcast_S50000x1_S50000x40_0_1 : (⟨S50000x1, .f32⟩ : BufTy).Contents (Elt F) → (⟨S50000x40, .f32⟩ : BufTy).Contents (Elt F)),
    binary main_call2_v5 main_call2_v10 main_v44 (subf : (⟨S50000x40, .f32⟩ : BufTy).Contents (Elt F) → (⟨S50000x40, .f32⟩ : BufTy).Contents (Elt F) → (⟨S50000x40, .f32⟩ : BufTy).Contents (Elt F)) ]

/-- @main's 72 operations, in order (a called function's operations stand in its call's place, each at its buffers). -/
abbrev ops : List (HloOp τ sig (Elt F)) :=
  [ nullary main_c (constantI S_ 32 0#32),
    unary main_c main_v0 (broadcastInDim S800000 ![] bcast_S_S800000 : (⟨S_, .i32⟩ : BufTy).Contents (Elt F) → (⟨S800000, .i32⟩ : BufTy).Contents (Elt F)),
    binary main_arg1 main_v0 main_v1 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v2 (broadcastInDim S800000 ![] bcast_S_S800000 : (⟨S_, .i32⟩ : BufTy).Contents (Elt F) → (⟨S800000, .i32⟩ : BufTy).Contents (Elt F)),
    binary main_arg1 main_v2 main_v3 (addi : (⟨S800000, .i32⟩ : BufTy).Contents (Elt F) → (⟨S800000, .i32⟩ : BufTy).Contents (Elt F) → (⟨S800000, .i32⟩ : BufTy).Contents (Elt F)),
    ternary main_v1 main_v3 main_arg1 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v4 main_v5 (broadcastInDim S800000x1 ![0] bcast_S800000_S800000x1_0 : (⟨S800000, .i32⟩ : BufTy).Contents (Elt F) → (⟨S800000x1, .i32⟩ : BufTy).Contents (Elt F)),
    binary main_arg0 main_v5 main_v6 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v7 (broadcastInDim S50000x128 ![] bcast_S_S50000x128 : (⟨S_, .f32⟩ : BufTy).Contents (Elt F) → (⟨S50000x128, .f32⟩ : BufTy).Contents (Elt F)),
    unary main_arg2 main_v8 (broadcastInDim S800000x1 ![0] bcast_S800000_S800000x1_0 : (⟨S800000, .i32⟩ : BufTy).Contents (Elt F) → (⟨S800000x1, .i32⟩ : BufTy).Contents (Elt F)),
    ternary main_v7 main_v8 main_v6 main_v9 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v9 main_arg3 main_v10 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v11 (broadcastInDim S1x128 ![1] bcast_S128_S1x128_1 : (⟨S128, .f32⟩ : BufTy).Contents (Elt F) → (⟨S1x128, .f32⟩ : BufTy).Contents (Elt F)),
    unary main_v11 main_v12 (broadcastInDim S50000x128 ![0, 1] bcast_S1x128_S50000x128_0_1 : (⟨S1x128, .f32⟩ : BufTy).Contents (Elt F) → (⟨S50000x128, .f32⟩ : BufTy).Contents (Elt F)),
    binary main_v10 main_v12 main_v13 (addf : (⟨S50000x128, .f32⟩ : BufTy).Contents (Elt F) → (⟨S50000x128, .f32⟩ : BufTy).Contents (Elt F) → (⟨S50000x128, .f32⟩ : BufTy).Contents (Elt F)),
    nullary main_call0_cst (constant S_ .f32 0x00000000#32 : (⟨S_, .f32⟩ : BufTy).Contents (Elt F)),
    unary main_call0_cst main_call0_v0 (broadcastInDim S50000x128 ![] bcast_S_S50000x128 : (⟨S_, .f32⟩ : BufTy).Contents (Elt F) → (⟨S50000x128, .f32⟩ : BufTy).Contents (Elt F)),
    binary main_v13 main_call0_v0 main_v14 (maximumf : (⟨S50000x128, .f32⟩ : BufTy).Contents (Elt F) → (⟨S50000x128, .f32⟩ : BufTy).Contents (Elt F) → (⟨S50000x128, .f32⟩ : BufTy).Contents (Elt F)),
    nullary main_c_1 (constantI S_ 32 0#32),
    unary main_c_1 main_v15 (broadcastInDim S800000 ![] bcast_S_S800000 : (⟨S_, .i32⟩ : BufTy).Contents (Elt F) → (⟨S800000, .i32⟩ : BufTy).Contents (Elt F)),
    binary main_arg1 main_v15 main_v16 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v17 (broadcastInDim S800000 ![] bcast_S_S800000 : (⟨S_, .i32⟩ : BufTy).Contents (Elt F) → (⟨S800000, .i32⟩ : BufTy).Contents (Elt F)),
    binary main_arg1 main_v17 main_v18 (addi : (⟨S800000, .i32⟩ : BufTy).Contents (Elt F) → (⟨S800000, .i32⟩ : BufTy).Contents (Elt F) → (⟨S800000, .i32⟩ : BufTy).Contents (Elt F)),
    ternary main_v16 main_v18 main_arg1 main_v19 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v19 main_v20 (broadcastInDim S800000x1 ![0] bcast_S800000_S800000x1_0 : (⟨S800000, .i32⟩ : BufTy).Contents (Elt F) → (⟨S800000x1, .i32⟩ : BufTy).Contents (Elt F)),
    binary main_v14 main_v20 main_v21 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_3 (constant S_ .f32 0x00000000#32),
    unary main_cst_3 main_v22 (broadcastInDim S50000x128 ![] bcast_S_S50000x128 : (⟨S_, .f32⟩ : BufTy).Contents (Elt F) → (⟨S50000x128, .f32⟩ : BufTy).Contents (Elt F)),
    unary main_arg2 main_v23 (broadcastInDim S800000x1 ![0] bcast_S800000_S800000x1_0 : (⟨S800000, .i32⟩ : BufTy).Contents (Elt F) → (⟨S800000x1, .i32⟩ : BufTy).Contents (Elt F)),
    ternary main_v22 main_v23 main_v21 main_v24 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v24 main_arg5 main_v25 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v26 (broadcastInDim S1x128 ![1] bcast_S128_S1x128_1 : (⟨S128, .f32⟩ : BufTy).Contents (Elt F) → (⟨S1x128, .f32⟩ : BufTy).Contents (Elt F)),
    unary main_v26 main_v27 (broadcastInDim S50000x128 ![0, 1] bcast_S1x128_S50000x128_0_1 : (⟨S1x128, .f32⟩ : BufTy).Contents (Elt F) → (⟨S50000x128, .f32⟩ : BufTy).Contents (Elt F)),
    binary main_v25 main_v27 main_v28 (addf : (⟨S50000x128, .f32⟩ : BufTy).Contents (Elt F) → (⟨S50000x128, .f32⟩ : BufTy).Contents (Elt F) → (⟨S50000x128, .f32⟩ : BufTy).Contents (Elt F)),
    nullary main_call1_cst (constant S_ .f32 0x00000000#32 : (⟨S_, .f32⟩ : BufTy).Contents (Elt F)),
    unary main_call1_cst main_call1_v0 (broadcastInDim S50000x128 ![] bcast_S_S50000x128 : (⟨S_, .f32⟩ : BufTy).Contents (Elt F) → (⟨S50000x128, .f32⟩ : BufTy).Contents (Elt F)),
    binary main_v28 main_call1_v0 main_v29 (maximumf : (⟨S50000x128, .f32⟩ : BufTy).Contents (Elt F) → (⟨S50000x128, .f32⟩ : BufTy).Contents (Elt F) → (⟨S50000x128, .f32⟩ : BufTy).Contents (Elt F)),
    nullary main_c_4 (constantI S_ 32 0#32),
    unary main_c_4 main_v30 (broadcastInDim S800000 ![] bcast_S_S800000 : (⟨S_, .i32⟩ : BufTy).Contents (Elt F) → (⟨S800000, .i32⟩ : BufTy).Contents (Elt F)),
    binary main_arg1 main_v30 main_v31 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v32 (broadcastInDim S800000 ![] bcast_S_S800000 : (⟨S_, .i32⟩ : BufTy).Contents (Elt F) → (⟨S800000, .i32⟩ : BufTy).Contents (Elt F)),
    binary main_arg1 main_v32 main_v33 (addi : (⟨S800000, .i32⟩ : BufTy).Contents (Elt F) → (⟨S800000, .i32⟩ : BufTy).Contents (Elt F) → (⟨S800000, .i32⟩ : BufTy).Contents (Elt F)),
    ternary main_v31 main_v33 main_arg1 main_v34 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v34 main_v35 (broadcastInDim S800000x1 ![0] bcast_S800000_S800000x1_0 : (⟨S800000, .i32⟩ : BufTy).Contents (Elt F) → (⟨S800000x1, .i32⟩ : BufTy).Contents (Elt F)),
    binary main_v29 main_v35 main_v36 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_6 (constant S_ .f32 0x00000000#32),
    unary main_cst_6 main_v37 (broadcastInDim S50000x128 ![] bcast_S_S50000x128 : (⟨S_, .f32⟩ : BufTy).Contents (Elt F) → (⟨S50000x128, .f32⟩ : BufTy).Contents (Elt F)),
    unary main_arg2 main_v38 (broadcastInDim S800000x1 ![0] bcast_S800000_S800000x1_0 : (⟨S800000, .i32⟩ : BufTy).Contents (Elt F) → (⟨S800000x1, .i32⟩ : BufTy).Contents (Elt F)),
    ternary main_v37 main_v38 main_v36 main_v39 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v39 main_arg7 main_v40 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    unary main_arg8 main_v41 (broadcastInDim S1x40 ![1] bcast_S40_S1x40_1 : (⟨S40, .f32⟩ : BufTy).Contents (Elt F) → (⟨S1x40, .f32⟩ : BufTy).Contents (Elt F)),
    unary main_v41 main_v42 (broadcastInDim S50000x40 ![0, 1] bcast_S1x40_S50000x40_0_1 : (⟨S1x40, .f32⟩ : BufTy).Contents (Elt F) → (⟨S50000x40, .f32⟩ : BufTy).Contents (Elt F)),
    binary main_v40 main_v42 main_v43 (addf : (⟨S50000x40, .f32⟩ : BufTy).Contents (Elt F) → (⟨S50000x40, .f32⟩ : BufTy).Contents (Elt F) → (⟨S50000x40, .f32⟩ : BufTy).Contents (Elt F)),
    nullary main_call2_cst (constant S_ .f32 0xFF800000#32 : (⟨S_, .f32⟩ : BufTy).Contents (Elt F)),
    binary main_v43 main_call2_cst main_call2_v0 (fun x v => Host.reduce FloatOps.maximumf x v reducesTo_S50000x40_S50000_d1 h_S_ : (⟨S50000x40, .f32⟩ : BufTy).Contents (Elt F) → (⟨S_, .f32⟩ : BufTy).Contents (Elt F) → (⟨S50000, .f32⟩ : BufTy).Contents (Elt F)),
    nullary main_call2_cst_0 (constant S_ .f32 0xFF800000#32 : (⟨S_, .f32⟩ : BufTy).Contents (Elt F)),
    unary main_call2_cst_0 main_call2_v1 (broadcastInDim S50000 ![] bcast_S_S50000 : (⟨S_, .f32⟩ : BufTy).Contents (Elt F) → (⟨S50000, .f32⟩ : BufTy).Contents (Elt F)),
    binary main_call2_v1 main_call2_v0 main_call2_v2 (maximumf : (⟨S50000, .f32⟩ : BufTy).Contents (Elt F) → (⟨S50000, .f32⟩ : BufTy).Contents (Elt F) → (⟨S50000, .f32⟩ : BufTy).Contents (Elt F)),
    unary main_call2_v2 main_call2_v3 (broadcastInDim S50000x1 ![0] bcast_S50000_S50000x1_0 : (⟨S50000, .f32⟩ : BufTy).Contents (Elt F) → (⟨S50000x1, .f32⟩ : BufTy).Contents (Elt F)),
    unary main_call2_v3 main_call2_v4 (broadcastInDim S50000x40 ![0, 1] bcast_S50000x1_S50000x40_0_1 : (⟨S50000x1, .f32⟩ : BufTy).Contents (Elt F) → (⟨S50000x40, .f32⟩ : BufTy).Contents (Elt F)),
    binary main_v43 main_call2_v4 main_call2_v5 (subf : (⟨S50000x40, .f32⟩ : BufTy).Contents (Elt F) → (⟨S50000x40, .f32⟩ : BufTy).Contents (Elt F) → (⟨S50000x40, .f32⟩ : BufTy).Contents (Elt F)),
    unary main_call2_v5 main_call2_v6 (Host.exp : (⟨S50000x40, .f32⟩ : BufTy).Contents (Elt F) → (⟨S50000x40, .f32⟩ : BufTy).Contents (Elt F)),
    nullary main_call2_cst_1 (constant S_ .f32 0x00000000#32 : (⟨S_, .f32⟩ : BufTy).Contents (Elt F)),
    binary main_call2_v6 main_call2_cst_1 main_call2_v7 (fun x v => Host.reduceAdd x v reducesTo_S50000x40_S50000_d1 h_S_ : (⟨S50000x40, .f32⟩ : BufTy).Contents (Elt F) → (⟨S_, .f32⟩ : BufTy).Contents (Elt F) → (⟨S50000, .f32⟩ : BufTy).Contents (Elt F)),
    unary main_call2_v7 main_call2_v8 (broadcastInDim S50000x1 ![0] bcast_S50000_S50000x1_0 : (⟨S50000, .f32⟩ : BufTy).Contents (Elt F) → (⟨S50000x1, .f32⟩ : BufTy).Contents (Elt F)),
    unary main_call2_v8 main_call2_v9 (Host.log : (⟨S50000x1, .f32⟩ : BufTy).Contents (Elt F) → (⟨S50000x1, .f32⟩ : BufTy).Contents (Elt F)),
    unary main_call2_v9 main_call2_v10 (broadcastInDim S50000x40 ![0, 1] bcast_S50000x1_S50000x40_0_1 : (⟨S50000x1, .f32⟩ : BufTy).Contents (Elt F) → (⟨S50000x40, .f32⟩ : BufTy).Contents (Elt F)),
    binary main_call2_v5 main_call2_v10 main_v44 (subf : (⟨S50000x40, .f32⟩ : BufTy).Contents (Elt F) → (⟨S50000x40, .f32⟩ : BufTy).Contents (Elt F) → (⟨S50000x40, .f32⟩ : BufTy).Contents (Elt F)) ]

/-- The dimension records and shape facts the reference's aggregation is printed with. -/
def refAgg : AggFacts where
  gat := gather_S50000x128_S800000x1_S800000x128_1_0_n_n_0_1_1128
  sca := scatter_S50000x128_S800000x1_S800000x128_1_0_0_1
  hbE := bcast_S_S800000
  hbC := bcast_S800000_S800000x1_0
  hbN := bcast_S_S50000x128

/-! ## The host's dense layers -/

/-- The host's rectified layer: a plain dot product, the bias broadcast to a row and to every row, the maximum with a
    broadcast zero. -/
theorem hostAct {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (a : FVec Ideal ⟨2, ![M, K]⟩ .f32) (W : FVec Ideal ⟨2, ![K, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![M, N]⟩ ![0, 1])
    (h0 : (⟨0, ![]⟩ : Shape).BroadcastsInDim ⟨2, ![M, N]⟩ ![]) :
    maximumf (addf (Host.dotGeneral (F := Ideal) D none a W)
        (broadcastInDim ⟨2, ![M, N]⟩ ![0, 1] hb2 (broadcastInDim ⟨2, ![1, N]⟩ ![1] hb1 b)))
      (broadcastInDim ⟨2, ![M, N]⟩ ![] h0 (constant (F := Ideal) ⟨0, ![]⟩ .f32 0x00000000#32))
      = act a W (row b) := by
  rw [hostDot_eq_mm D h1 h2 h3 h4 h5 h6, hostReluBias]
  rfl

/-- The host's affine layer: a plain dot product and the bias broadcast to a row and to every row. -/
theorem hostAffine {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (a : FVec Ideal ⟨2, ![M, K]⟩ .f32) (W : FVec Ideal ⟨2, ![K, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![M, N]⟩ ![0, 1]) :
    addf (Host.dotGeneral (F := Ideal) D none a W)
        (broadcastInDim ⟨2, ![M, N]⟩ ![0, 1] hb2 (broadcastInDim ⟨2, ![1, N]⟩ ![1] hb1 b))
      = addRow (mm a W) (row b) := by
  rw [hostDot_eq_mm D h1 h2 h3 h4 h5 h6, hostAddRow]

/-- The shifted log-softmax from its parts, spelt with the arrays' subtraction. -/
theorem lsm_of_parts_subf {n c : ℕ} (X Mx L : FVec Ideal ⟨2, ![n, c]⟩ .f32) (hM : ∀ p k, Mx (ValueIdx.ix2 p k) = rowMax X p)
    (hL : ∀ p k, L (ValueIdx.ix2 p k) = Ideal.log (∑ j : Fin c, Ideal.exp (X (ValueIdx.ix2 p j) - Mx (ValueIdx.ix2 p j)))) :
    subf (subf X Mx) L = lsm X := lsm_of_parts X Mx L hM hL

/-! ## Each layer's operations, applied to any buffer contents -/

/-- The logits' second axis reduces to a vector over the nodes. -/
theorem reduces_logits : S50000x40.Reduces [1] S50000 := by decide

set_option maxRecDepth 8192 in
/-- The first layer's operations leave the first hidden array at `max (agg x · W₁ + b₁, 0)` of the contents they read. -/
theorem s1_out (V : Valuation τ sig (Elt Ideal)) :
    after (ops1 (F := Ideal)) V (Proc.devRef .tc main_v14)
      = act (agg refAgg (V (Proc.devRef .tc main_arg0)) (V (Proc.devRef .tc main_arg1)) (V (Proc.devRef .tc main_arg2)))
          (V (Proc.devRef .tc main_arg3)) (row (V (Proc.devRef .tc main_arg4))) := by
  unfold ops1
  conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  exact hostAct dot_S50000x128_S128x128_S50000x128_1_0_0_1_n_n rfl rfl rfl rfl rfl rfl
    (agg refAgg (V (Proc.devRef .tc main_arg0)) (V (Proc.devRef .tc main_arg1)) (V (Proc.devRef .tc main_arg2)))
    (V (Proc.devRef .tc main_arg3)) (V (Proc.devRef .tc main_arg4)) bcast_S128_S1x128_1 bcast_S1x128_S50000x128_0_1 bcast_S_S50000x128

set_option maxRecDepth 8192 in
/-- The second layer's operations leave the second hidden array at `max (agg h₁ · Wₘ + bₘ, 0)`. -/
theorem s2_out (V : Valuation τ sig (Elt Ideal)) :
    after (ops2 (F := Ideal)) V (Proc.devRef .tc main_v29)
      = act (agg refAgg (V (Proc.devRef .tc main_v14)) (V (Proc.devRef .tc main_arg1)) (V (Proc.devRef .tc main_arg2)))
          (V (Proc.devRef .tc main_arg5)) (row (V (Proc.devRef .tc main_arg6))) := by
  unfold ops2
  conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  exact hostAct dot_S50000x128_S128x128_S50000x128_1_0_0_1_n_n rfl rfl rfl rfl rfl rfl
    (agg refAgg (V (Proc.devRef .tc main_v14)) (V (Proc.devRef .tc main_arg1)) (V (Proc.devRef .tc main_arg2)))
    (V (Proc.devRef .tc main_arg5)) (V (Proc.devRef .tc main_arg6)) bcast_S128_S1x128_1 bcast_S1x128_S50000x128_0_1 bcast_S_S50000x128

set_option maxRecDepth 8192 in
/-- The third layer's operations leave the logits at `agg h₂ · W₂ + b₂`. -/
theorem s3_out (V : Valuation τ sig (Elt Ideal)) :
    after (ops3 (F := Ideal)) V (Proc.devRef .tc main_v43)
      = addRow (mm (agg refAgg (V (Proc.devRef .tc main_v29)) (V (Proc.devRef .tc main_arg1)) (V (Proc.devRef .tc main_arg2)))
          (V (Proc.devRef .tc main_arg7))) (row (V (Proc.devRef .tc main_arg8))) := by
  unfold ops3
  conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  exact hostAffine dot_S50000x128_S128x40_S50000x40_1_0_0_1_n_n rfl rfl rfl rfl rfl rfl
    (agg refAgg (V (Proc.devRef .tc main_v29)) (V (Proc.devRef .tc main_arg1)) (V (Proc.devRef .tc main_arg2)))
    (V (Proc.devRef .tc main_arg7)) (V (Proc.devRef .tc main_arg8)) bcast_S40_S1x40_1 bcast_S1x40_S50000x40_0_1

set_option maxRecDepth 8192 in
/-- The last operations leave the result at the row-wise log-softmax of the logits. -/
theorem s4_out (V : Valuation τ sig (Elt Ideal)) :
    after (ops4 (F := Ideal)) V (Proc.devRef .tc main_v44) = lsm (V (Proc.devRef .tc main_v43)) := by
  unfold ops4
  conv_lhs => simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  exact lsm_of_parts_subf (V (Proc.devRef .tc main_v43)) _ _
    (fun p k => hostColMax (V (Proc.devRef .tc main_v43)) reducesTo_S50000x40_S50000_d1 reduces_logits h_S_ bcast_S_S50000 bcast_S50000_S50000x1_0 bcast_S50000x1_S50000x40_0_1 p k)
    (fun p k => hostColLogSum _ reducesTo_S50000x40_S50000_d1 reduces_logits h_S_ bcast_S50000_S50000x1_0 bcast_S50000x1_S50000x40_0_1 p k)

/-! ## What each layer leaves alone -/

theorem s1_keep_arg1 (V : Valuation τ sig (Elt Ideal)) :
    after (ops1 (F := Ideal)) V (Proc.devRef .tc main_arg1) = V (Proc.devRef .tc main_arg1) := by
  unfold ops1
  after_results_simp

theorem s1_keep_arg2 (V : Valuation τ sig (Elt Ideal)) :
    after (ops1 (F := Ideal)) V (Proc.devRef .tc main_arg2) = V (Proc.devRef .tc main_arg2) := by
  unfold ops1
  after_results_simp

theorem s1_keep_arg5 (V : Valuation τ sig (Elt Ideal)) :
    after (ops1 (F := Ideal)) V (Proc.devRef .tc main_arg5) = V (Proc.devRef .tc main_arg5) := by
  unfold ops1
  after_results_simp

theorem s1_keep_arg6 (V : Valuation τ sig (Elt Ideal)) :
    after (ops1 (F := Ideal)) V (Proc.devRef .tc main_arg6) = V (Proc.devRef .tc main_arg6) := by
  unfold ops1
  after_results_simp

theorem s1_keep_arg7 (V : Valuation τ sig (Elt Ideal)) :
    after (ops1 (F := Ideal)) V (Proc.devRef .tc main_arg7) = V (Proc.devRef .tc main_arg7) := by
  unfold ops1
  after_results_simp

theorem s1_keep_arg8 (V : Valuation τ sig (Elt Ideal)) :
    after (ops1 (F := Ideal)) V (Proc.devRef .tc main_arg8) = V (Proc.devRef .tc main_arg8) := by
  unfold ops1
  after_results_simp

theorem s2_keep_arg1 (V : Valuation τ sig (Elt Ideal)) :
    after (ops2 (F := Ideal)) V (Proc.devRef .tc main_arg1) = V (Proc.devRef .tc main_arg1) := by
  unfold ops2
  after_results_simp

theorem s2_keep_arg2 (V : Valuation τ sig (Elt Ideal)) :
    after (ops2 (F := Ideal)) V (Proc.devRef .tc main_arg2) = V (Proc.devRef .tc main_arg2) := by
  unfold ops2
  after_results_simp

theorem s2_keep_arg7 (V : Valuation τ sig (Elt Ideal)) :
    after (ops2 (F := Ideal)) V (Proc.devRef .tc main_arg7) = V (Proc.devRef .tc main_arg7) := by
  unfold ops2
  after_results_simp

theorem s2_keep_arg8 (V : Valuation τ sig (Elt Ideal)) :
    after (ops2 (F := Ideal)) V (Proc.devRef .tc main_arg8) = V (Proc.devRef .tc main_arg8) := by
  unfold ops2
  after_results_simp

/-! ## The whole list -/

theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

theorem ops_split : (ops : List (HloOp τ sig (Elt F))) = ops1 ++ (ops2 ++ (ops3 ++ ops4)) := rfl

/-- The result buffer after all of @main's operations, from any contents: the network of the argument buffers. -/
theorem out_eq (V : Valuation τ sig (Elt Ideal)) :
    after (ops (F := Ideal)) V (Proc.devRef .tc main_v44)
      = net refAgg (V (Proc.devRef .tc main_arg0)) (V (Proc.devRef .tc main_arg1)) (V (Proc.devRef .tc main_arg2))
          (V (Proc.devRef .tc main_arg3)) (row (V (Proc.devRef .tc main_arg4)))
          (V (Proc.devRef .tc main_arg5)) (row (V (Proc.devRef .tc main_arg6)))
          (V (Proc.devRef .tc main_arg7)) (row (V (Proc.devRef .tc main_arg8))) := by
  rw [ops_split, after_append, after_append, after_append, s4_out, s3_out, s2_out, s1_out,
    s2_keep_arg1, s2_keep_arg2, s2_keep_arg7, s2_keep_arg8,
    s1_keep_arg1, s1_keep_arg2, s1_keep_arg5, s1_keep_arg6, s1_keep_arg7, s1_keep_arg8]
  rfl

/-! ## The run -/

/-- @main's operations as printed: a called function's operations in its call's place, over the call's typed references. -/
abbrev opsT : List (HloOp τ sig (Elt F)) :=
  [ nullary main_c (constantI S_ 32 0#32),
    unary main_c main_v0 (broadcastInDim S800000 ![] bcast_S_S800000 : (⟨S_, .i32⟩ : BufTy).Contents (Elt F) → (⟨S800000, .i32⟩ : BufTy).Contents (Elt F)),
    binary main_arg1 main_v0 main_v1 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v2 (broadcastInDim S800000 ![] bcast_S_S800000 : (⟨S_, .i32⟩ : BufTy).Contents (Elt F) → (⟨S800000, .i32⟩ : BufTy).Contents (Elt F)),
    binary main_arg1 main_v2 main_v3 (addi : (⟨S800000, .i32⟩ : BufTy).Contents (Elt F) → (⟨S800000, .i32⟩ : BufTy).Contents (Elt F) → (⟨S800000, .i32⟩ : BufTy).Contents (Elt F)),
    ternary main_v1 main_v3 main_arg1 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v4 main_v5 (broadcastInDim S800000x1 ![0] bcast_S800000_S800000x1_0 : (⟨S800000, .i32⟩ : BufTy).Contents (Elt F) → (⟨S800000x1, .i32⟩ : BufTy).Contents (Elt F)),
    binary main_arg0 main_v5 main_v6 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v7 (broadcastInDim S50000x128 ![] bcast_S_S50000x128 : (⟨S_, .f32⟩ : BufTy).Contents (Elt F) → (⟨S50000x128, .f32⟩ : BufTy).Contents (Elt F)),
    unary main_arg2 main_v8 (broadcastInDim S800000x1 ![0] bcast_S800000_S800000x1_0 : (⟨S800000, .i32⟩ : BufTy).Contents (Elt F) → (⟨S800000x1, .i32⟩ : BufTy).Contents (Elt F)),
    ternary main_v7 main_v8 main_v6 main_v9 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v9 main_arg3 main_v10 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v11 (broadcastInDim S1x128 ![1] bcast_S128_S1x128_1 : (⟨S128, .f32⟩ : BufTy).Contents (Elt F) → (⟨S1x128, .f32⟩ : BufTy).Contents (Elt F)),
    unary main_v11 main_v12 (broadcastInDim S50000x128 ![0, 1] bcast_S1x128_S50000x128_0_1 : (⟨S1x128, .f32⟩ : BufTy).Contents (Elt F) → (⟨S50000x128, .f32⟩ : BufTy).Contents (Elt F)),
    binary main_v10 main_v12 main_v13 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v13) (TRef.of (T := ⟨S50000x128, .f32⟩) main_call0_v0) (TRef.of (T := ⟨S50000x128, .f32⟩) main_v14) maximumf,
    nullary main_c_1 (constantI S_ 32 0#32),
    unary main_c_1 main_v15 (broadcastInDim S800000 ![] bcast_S_S800000 : (⟨S_, .i32⟩ : BufTy).Contents (Elt F) → (⟨S800000, .i32⟩ : BufTy).Contents (Elt F)),
    binary main_arg1 main_v15 main_v16 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v17 (broadcastInDim S800000 ![] bcast_S_S800000 : (⟨S_, .i32⟩ : BufTy).Contents (Elt F) → (⟨S800000, .i32⟩ : BufTy).Contents (Elt F)),
    binary main_arg1 main_v17 main_v18 (addi : (⟨S800000, .i32⟩ : BufTy).Contents (Elt F) → (⟨S800000, .i32⟩ : BufTy).Contents (Elt F) → (⟨S800000, .i32⟩ : BufTy).Contents (Elt F)),
    ternary main_v16 main_v18 main_arg1 main_v19 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v19 main_v20 (broadcastInDim S800000x1 ![0] bcast_S800000_S800000x1_0 : (⟨S800000, .i32⟩ : BufTy).Contents (Elt F) → (⟨S800000x1, .i32⟩ : BufTy).Contents (Elt F)),
    binary main_v14 main_v20 main_v21 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_3 (constant S_ .f32 0x00000000#32),
    unary main_cst_3 main_v22 (broadcastInDim S50000x128 ![] bcast_S_S50000x128 : (⟨S_, .f32⟩ : BufTy).Contents (Elt F) → (⟨S50000x128, .f32⟩ : BufTy).Contents (Elt F)),
    unary main_arg2 main_v23 (broadcastInDim S800000x1 ![0] bcast_S800000_S800000x1_0 : (⟨S800000, .i32⟩ : BufTy).Contents (Elt F) → (⟨S800000x1, .i32⟩ : BufTy).Contents (Elt F)),
    ternary main_v22 main_v23 main_v21 main_v24 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v24 main_arg5 main_v25 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v26 (broadcastInDim S1x128 ![1] bcast_S128_S1x128_1 : (⟨S128, .f32⟩ : BufTy).Contents (Elt F) → (⟨S1x128, .f32⟩ : BufTy).Contents (Elt F)),
    unary main_v26 main_v27 (broadcastInDim S50000x128 ![0, 1] bcast_S1x128_S50000x128_0_1 : (⟨S1x128, .f32⟩ : BufTy).Contents (Elt F) → (⟨S50000x128, .f32⟩ : BufTy).Contents (Elt F)),
    binary main_v25 main_v27 main_v28 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v28) (TRef.of (T := ⟨S50000x128, .f32⟩) main_call1_v0) (TRef.of (T := ⟨S50000x128, .f32⟩) main_v29) maximumf,
    nullary main_c_4 (constantI S_ 32 0#32),
    unary main_c_4 main_v30 (broadcastInDim S800000 ![] bcast_S_S800000 : (⟨S_, .i32⟩ : BufTy).Contents (Elt F) → (⟨S800000, .i32⟩ : BufTy).Contents (Elt F)),
    binary main_arg1 main_v30 main_v31 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v32 (broadcastInDim S800000 ![] bcast_S_S800000 : (⟨S_, .i32⟩ : BufTy).Contents (Elt F) → (⟨S800000, .i32⟩ : BufTy).Contents (Elt F)),
    binary main_arg1 main_v32 main_v33 (addi : (⟨S800000, .i32⟩ : BufTy).Contents (Elt F) → (⟨S800000, .i32⟩ : BufTy).Contents (Elt F) → (⟨S800000, .i32⟩ : BufTy).Contents (Elt F)),
    ternary main_v31 main_v33 main_arg1 main_v34 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v34 main_v35 (broadcastInDim S800000x1 ![0] bcast_S800000_S800000x1_0 : (⟨S800000, .i32⟩ : BufTy).Contents (Elt F) → (⟨S800000x1, .i32⟩ : BufTy).Contents (Elt F)),
    binary main_v29 main_v35 main_v36 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_6 (constant S_ .f32 0x00000000#32),
    unary main_cst_6 main_v37 (broadcastInDim S50000x128 ![] bcast_S_S50000x128 : (⟨S_, .f32⟩ : BufTy).Contents (Elt F) → (⟨S50000x128, .f32⟩ : BufTy).Contents (Elt F)),
    unary main_arg2 main_v38 (broadcastInDim S800000x1 ![0] bcast_S800000_S800000x1_0 : (⟨S800000, .i32⟩ : BufTy).Contents (Elt F) → (⟨S800000x1, .i32⟩ : BufTy).Contents (Elt F)),
    ternary main_v37 main_v38 main_v36 main_v39 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v39 main_arg7 main_v40 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    unary main_arg8 main_v41 (broadcastInDim S1x40 ![1] bcast_S40_S1x40_1 : (⟨S40, .f32⟩ : BufTy).Contents (Elt F) → (⟨S1x40, .f32⟩ : BufTy).Contents (Elt F)),
    unary main_v41 main_v42 (broadcastInDim S50000x40 ![0, 1] bcast_S1x40_S50000x40_0_1 : (⟨S1x40, .f32⟩ : BufTy).Contents (Elt F) → (⟨S50000x40, .f32⟩ : BufTy).Contents (Elt F)),
    binary main_v40 main_v42 main_v43 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call2_cst) (constant S_ .f32 0xFF800000#32),
    TRef.binary (TRef.of (T := ⟨S50000x40, .f32⟩) main_v43) (TRef.of (T := ⟨S_, .f32⟩) main_call2_cst) (TRef.of (T := ⟨S50000, .f32⟩) main_call2_v0) (fun x v => Host.reduce FloatOps.maximumf x v reducesTo_S50000x40_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x40, .f32⟩) main_call2_v4) (broadcastInDim S50000x40 ![0, 1] bcast_S50000x1_S50000x40_0_1),
    TRef.binary (TRef.of (T := ⟨S50000x40, .f32⟩) main_v43) (TRef.of (T := ⟨S50000x40, .f32⟩) main_call2_v4) (TRef.of (T := ⟨S50000x40, .f32⟩) main_call2_v5) subf,
    TRef.unary (TRef.of (T := ⟨S50000x40, .f32⟩) main_call2_v5) (TRef.of (T := ⟨S50000x40, .f32⟩) main_call2_v6) Host.exp,
    TRef.nullary (TRef.of (T := ⟨S_, .f32⟩) main_call2_cst_1) (constant S_ .f32 0x00000000#32),
    TRef.binary (TRef.of (T := ⟨S50000x40, .f32⟩) main_call2_v6) (TRef.of (T := ⟨S_, .f32⟩) main_call2_cst_1) (TRef.of (T := ⟨S50000, .f32⟩) main_call2_v7) (fun x v => Host.reduceAdd x v reducesTo_S50000x40_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x40, .f32⟩) main_call2_v10) (broadcastInDim S50000x40 ![0, 1] bcast_S50000x1_S50000x40_0_1),
    TRef.binary (TRef.of (T := ⟨S50000x40, .f32⟩) main_call2_v5) (TRef.of (T := ⟨S50000x40, .f32⟩) main_call2_v10) (TRef.of (T := ⟨S50000x40, .f32⟩) main_v44) subf ]

set_option maxRecDepth 8192 in
set_option maxHeartbeats 4000000 in
theorem main_eqT (c : Dev nD) : main (F := F) c = seq opsT := rfl

/-! A called function's operation over typed references is the plain operation at the references' buffers: the
    transport of contents along a type equation that holds by computation is the identity.  Stated for ANY function of
    the contents, so that no operation is ever opened. -/

section Plain

variable {Val : EltTy → Type}

theorem nullary_of (y : Ref sig .tc) (h2 : y.space ≠ .host) (h3 : y.isScoped = false) (v : y.ty.Contents Val)
    (hy : y.space ≠ .host ∧ (y : DevRef τ sig).isScoped = false) :
    (TRef.nullary (τ := τ) (TRef.of (T := y.ty) y rfl h2 h3) v : HloOp τ sig Val) = StableHlo.nullary y v hy := rfl

theorem unary_of (x y : Ref sig .tc) (h2x : x.space ≠ .host) (h3x : x.isScoped = false) (h2y : y.space ≠ .host) (h3y : y.isScoped = false)
    (f : x.ty.Contents Val → y.ty.Contents Val)
    (hx : x.space ≠ .host ∧ (x : DevRef τ sig).isScoped = false) (hy : y.space ≠ .host ∧ (y : DevRef τ sig).isScoped = false) :
    (TRef.unary (τ := τ) (TRef.of (T := x.ty) x rfl h2x h3x) (TRef.of (T := y.ty) y rfl h2y h3y) f : HloOp τ sig Val)
      = StableHlo.unary x y f hx hy := rfl

theorem binary_of (a b y : Ref sig .tc) (h2a : a.space ≠ .host) (h3a : a.isScoped = false) (h2b : b.space ≠ .host) (h3b : b.isScoped = false)
    (h2y : y.space ≠ .host) (h3y : y.isScoped = false)
    (f : a.ty.Contents Val → b.ty.Contents Val → y.ty.Contents Val)
    (ha : a.space ≠ .host ∧ (a : DevRef τ sig).isScoped = false) (hb : b.space ≠ .host ∧ (b : DevRef τ sig).isScoped = false)
    (hy : y.space ≠ .host ∧ (y : DevRef τ sig).isScoped = false) :
    (TRef.binary (τ := τ) (TRef.of (T := a.ty) a rfl h2a h3a) (TRef.of (T := b.ty) b rfl h2b h3b) (TRef.of (T := y.ty) y rfl h2y h3y) f : HloOp τ sig Val)
      = StableHlo.binary a b y f ha hb hy := rfl

end Plain

theorem op_17 : (TRef.nullary (TRef.of (T := ⟨S_, .f32⟩) main_call0_cst) (constant S_ .f32 0x00000000#32) : HloOp τ sig (Elt F)) = nullary main_call0_cst (constant S_ .f32 0x00000000#32 : (⟨S_, .f32⟩ : BufTy).Contents (Elt F)) := nullary_of _ _ _ _ _
theorem op_18 : (TRef.unary (TRef.of (T := ⟨S_, .f32⟩) main_call0_cst) (TRef.of (T := ⟨S50000x128, .f32⟩) main_call0_v0) (broadcastInDim S50000x128 ![] bcast_S_S50000x128) : HloOp τ sig (Elt F)) = unary main_call0_cst main_call0_v0 (broadcastInDim S50000x128 ![] bcast_S_S50000x128 : (⟨S_, .f32⟩ : BufTy).Contents (Elt F) → (⟨S50000x128, .f32⟩ : BufTy).Contents (Elt F)) := unary_of _ _ _ _ _ _ _ _ _
theorem op_19 : (TRef.binary (TRef.of (T := ⟨S50000x128, .f32⟩) main_v13) (TRef.of (T := ⟨S50000x128, .f32⟩) main_call0_v0) (TRef.of (T := ⟨S50000x128, .f32⟩) main_v14) maximumf : HloOp τ sig (Elt F)) = binary main_v13 main_call0_v0 main_v14 (maximumf : (⟨S50000x128, .f32⟩ : BufTy).Contents (Elt F) → (⟨S50000x128, .f32⟩ : BufTy).Contents (Elt F) → (⟨S50000x128, .f32⟩ : BufTy).Contents (Elt F)) := binary_of _ _ _ _ _ _ _ _ _ _ _ _ _
theorem op_37 : (TRef.nullary (TRef.of (T := ⟨S_, .f32⟩) main_call1_cst) (constant S_ .f32 0x00000000#32) : HloOp τ sig (Elt F)) = nullary main_call1_cst (constant S_ .f32 0x00000000#32 : (⟨S_, .f32⟩ : BufTy).Contents (Elt F)) := nullary_of _ _ _ _ _
theorem op_38 : (TRef.unary (TRef.of (T := ⟨S_, .f32⟩) main_call1_cst) (TRef.of (T := ⟨S50000x128, .f32⟩) main_call1_v0) (broadcastInDim S50000x128 ![] bcast_S_S50000x128) : HloOp τ sig (Elt F)) = unary main_call1_cst main_call1_v0 (broadcastInDim S50000x128 ![] bcast_S_S50000x128 : (⟨S_, .f32⟩ : BufTy).Contents (Elt F) → (⟨S50000x128, .f32⟩ : BufTy).Contents (Elt F)) := unary_of _ _ _ _ _ _ _ _ _
theorem op_39 : (TRef.binary (TRef.of (T := ⟨S50000x128, .f32⟩) main_v28) (TRef.of (T := ⟨S50000x128, .f32⟩) main_call1_v0) (TRef.of (T := ⟨S50000x128, .f32⟩) main_v29) maximumf : HloOp τ sig (Elt F)) = binary main_v28 main_call1_v0 main_v29 (maximumf : (⟨S50000x128, .f32⟩ : BufTy).Contents (Elt F) → (⟨S50000x128, .f32⟩ : BufTy).Contents (Elt F) → (⟨S50000x128, .f32⟩ : BufTy).Contents (Elt F)) := binary_of _ _ _ _ _ _ _ _ _ _ _ _ _
theorem op_57 : (TRef.nullary (TRef.of (T := ⟨S_, .f32⟩) main_call2_cst) (constant S_ .f32 0xFF800000#32) : HloOp τ sig (Elt F)) = nullary main_call2_cst (constant S_ .f32 0xFF800000#32 : (⟨S_, .f32⟩ : BufTy).Contents (Elt F)) := nullary_of _ _ _ _ _
theorem op_58 : (TRef.binary (TRef.of (T := ⟨S50000x40, .f32⟩) main_v43) (TRef.of (T := ⟨S_, .f32⟩) main_call2_cst) (TRef.of (T := ⟨S50000, .f32⟩) main_call2_v0) (fun x v => Host.reduce FloatOps.maximumf x v reducesTo_S50000x40_S50000_d1 h_S_) : HloOp τ sig (Elt F)) = binary main_v43 main_call2_cst main_call2_v0 (fun x v => Host.reduce FloatOps.maximumf x v reducesTo_S50000x40_S50000_d1 h_S_ : (⟨S50000x40, .f32⟩ : BufTy).Contents (Elt F) → (⟨S_, .f32⟩ : BufTy).Contents (Elt F) → (⟨S50000, .f32⟩ : BufTy).Contents (Elt F)) := binary_of _ _ _ _ _ _ _ _ _ _ _ _ _
theorem op_59 : (TRef.nullary (TRef.of (T := ⟨S_, .f32⟩) main_call2_cst_0) (constant S_ .f32 0xFF800000#32) : HloOp τ sig (Elt F)) = nullary main_call2_cst_0 (constant S_ .f32 0xFF800000#32 : (⟨S_, .f32⟩ : BufTy).Contents (Elt F)) := nullary_of _ _ _ _ _
theorem op_60 : (TRef.unary (TRef.of (T := ⟨S_, .f32⟩) main_call2_cst_0) (TRef.of (T := ⟨S50000, .f32⟩) main_call2_v1) (broadcastInDim S50000 ![] bcast_S_S50000) : HloOp τ sig (Elt F)) = unary main_call2_cst_0 main_call2_v1 (broadcastInDim S50000 ![] bcast_S_S50000 : (⟨S_, .f32⟩ : BufTy).Contents (Elt F) → (⟨S50000, .f32⟩ : BufTy).Contents (Elt F)) := unary_of _ _ _ _ _ _ _ _ _
theorem op_61 : (TRef.binary (TRef.of (T := ⟨S50000, .f32⟩) main_call2_v1) (TRef.of (T := ⟨S50000, .f32⟩) main_call2_v0) (TRef.of (T := ⟨S50000, .f32⟩) main_call2_v2) maximumf : HloOp τ sig (Elt F)) = binary main_call2_v1 main_call2_v0 main_call2_v2 (maximumf : (⟨S50000, .f32⟩ : BufTy).Contents (Elt F) → (⟨S50000, .f32⟩ : BufTy).Contents (Elt F) → (⟨S50000, .f32⟩ : BufTy).Contents (Elt F)) := binary_of _ _ _ _ _ _ _ _ _ _ _ _ _
theorem op_62 : (TRef.unary (TRef.of (T := ⟨S50000, .f32⟩) main_call2_v2) (TRef.of (T := ⟨S50000x1, .f32⟩) main_call2_v3) (broadcastInDim S50000x1 ![0] bcast_S50000_S50000x1_0) : HloOp τ sig (Elt F)) = unary main_call2_v2 main_call2_v3 (broadcastInDim S50000x1 ![0] bcast_S50000_S50000x1_0 : (⟨S50000, .f32⟩ : BufTy).Contents (Elt F) → (⟨S50000x1, .f32⟩ : BufTy).Contents (Elt F)) := unary_of _ _ _ _ _ _ _ _ _
theorem op_63 : (TRef.unary (TRef.of (T := ⟨S50000x1, .f32⟩) main_call2_v3) (TRef.of (T := ⟨S50000x40, .f32⟩) main_call2_v4) (broadcastInDim S50000x40 ![0, 1] bcast_S50000x1_S50000x40_0_1) : HloOp τ sig (Elt F)) = unary main_call2_v3 main_call2_v4 (broadcastInDim S50000x40 ![0, 1] bcast_S50000x1_S50000x40_0_1 : (⟨S50000x1, .f32⟩ : BufTy).Contents (Elt F) → (⟨S50000x40, .f32⟩ : BufTy).Contents (Elt F)) := unary_of _ _ _ _ _ _ _ _ _
theorem op_64 : (TRef.binary (TRef.of (T := ⟨S50000x40, .f32⟩) main_v43) (TRef.of (T := ⟨S50000x40, .f32⟩) main_call2_v4) (TRef.of (T := ⟨S50000x40, .f32⟩) main_call2_v5) subf : HloOp τ sig (Elt F)) = binary main_v43 main_call2_v4 main_call2_v5 (subf : (⟨S50000x40, .f32⟩ : BufTy).Contents (Elt F) → (⟨S50000x40, .f32⟩ : BufTy).Contents (Elt F) → (⟨S50000x40, .f32⟩ : BufTy).Contents (Elt F)) := binary_of _ _ _ _ _ _ _ _ _ _ _ _ _
theorem op_65 : (TRef.unary (TRef.of (T := ⟨S50000x40, .f32⟩) main_call2_v5) (TRef.of (T := ⟨S50000x40, .f32⟩) main_call2_v6) Host.exp : HloOp τ sig (Elt F)) = unary main_call2_v5 main_call2_v6 (Host.exp : (⟨S50000x40, .f32⟩ : BufTy).Contents (Elt F) → (⟨S50000x40, .f32⟩ : BufTy).Contents (Elt F)) := unary_of _ _ _ _ _ _ _ _ _
theorem op_66 : (TRef.nullary (TRef.of (T := ⟨S_, .f32⟩) main_call2_cst_1) (constant S_ .f32 0x00000000#32) : HloOp τ sig (Elt F)) = nullary main_call2_cst_1 (constant S_ .f32 0x00000000#32 : (⟨S_, .f32⟩ : BufTy).Contents (Elt F)) := nullary_of _ _ _ _ _
theorem op_67 : (TRef.binary (TRef.of (T := ⟨S50000x40, .f32⟩) main_call2_v6) (TRef.of (T := ⟨S_, .f32⟩) main_call2_cst_1) (TRef.of (T := ⟨S50000, .f32⟩) main_call2_v7) (fun x v => Host.reduceAdd x v reducesTo_S50000x40_S50000_d1 h_S_) : HloOp τ sig (Elt F)) = binary main_call2_v6 main_call2_cst_1 main_call2_v7 (fun x v => Host.reduceAdd x v reducesTo_S50000x40_S50000_d1 h_S_ : (⟨S50000x40, .f32⟩ : BufTy).Contents (Elt F) → (⟨S_, .f32⟩ : BufTy).Contents (Elt F) → (⟨S50000, .f32⟩ : BufTy).Contents (Elt F)) := binary_of _ _ _ _ _ _ _ _ _ _ _ _ _
theorem op_68 : (TRef.unary (TRef.of (T := ⟨S50000, .f32⟩) main_call2_v7) (TRef.of (T := ⟨S50000x1, .f32⟩) main_call2_v8) (broadcastInDim S50000x1 ![0] bcast_S50000_S50000x1_0) : HloOp τ sig (Elt F)) = unary main_call2_v7 main_call2_v8 (broadcastInDim S50000x1 ![0] bcast_S50000_S50000x1_0 : (⟨S50000, .f32⟩ : BufTy).Contents (Elt F) → (⟨S50000x1, .f32⟩ : BufTy).Contents (Elt F)) := unary_of _ _ _ _ _ _ _ _ _
theorem op_69 : (TRef.unary (TRef.of (T := ⟨S50000x1, .f32⟩) main_call2_v8) (TRef.of (T := ⟨S50000x1, .f32⟩) main_call2_v9) Host.log : HloOp τ sig (Elt F)) = unary main_call2_v8 main_call2_v9 (Host.log : (⟨S50000x1, .f32⟩ : BufTy).Contents (Elt F) → (⟨S50000x1, .f32⟩ : BufTy).Contents (Elt F)) := unary_of _ _ _ _ _ _ _ _ _
theorem op_70 : (TRef.unary (TRef.of (T := ⟨S50000x1, .f32⟩) main_call2_v9) (TRef.of (T := ⟨S50000x40, .f32⟩) main_call2_v10) (broadcastInDim S50000x40 ![0, 1] bcast_S50000x1_S50000x40_0_1) : HloOp τ sig (Elt F)) = unary main_call2_v9 main_call2_v10 (broadcastInDim S50000x40 ![0, 1] bcast_S50000x1_S50000x40_0_1 : (⟨S50000x1, .f32⟩ : BufTy).Contents (Elt F) → (⟨S50000x40, .f32⟩ : BufTy).Contents (Elt F)) := unary_of _ _ _ _ _ _ _ _ _
theorem op_71 : (TRef.binary (TRef.of (T := ⟨S50000x40, .f32⟩) main_call2_v5) (TRef.of (T := ⟨S50000x40, .f32⟩) main_call2_v10) (TRef.of (T := ⟨S50000x40, .f32⟩) main_v44) subf : HloOp τ sig (Elt F)) = binary main_call2_v5 main_call2_v10 main_v44 (subf : (⟨S50000x40, .f32⟩ : BufTy).Contents (Elt F) → (⟨S50000x40, .f32⟩ : BufTy).Contents (Elt F) → (⟨S50000x40, .f32⟩ : BufTy).Contents (Elt F)) := binary_of _ _ _ _ _ _ _ _ _ _ _ _ _

set_option maxRecDepth 8192 in
theorem opsT_eq : (opsT : List (HloOp τ sig (Elt F))) = ops := by
  unfold opsT ops
  rw [op_17, op_18, op_19, op_37, op_38, op_39, op_57, op_58, op_59, op_60, op_61, op_62, op_63, op_64, op_65, op_66, op_67, op_68, op_69, op_70, op_71]

theorem main_eq (c : Dev nD) : main (F := F) c = seq ops := (main_eqT c).trans (congrArg seq opsT_eq)
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
set_option maxHeartbeats 8000000 in
/-- From any memory with zero counters every weakly fair execution of the reference terminates with the result at the
    network of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v44)
        = net refAgg (m ((c.tc : Thread nD τ).loc main_arg0)) (m ((c.tc : Thread nD τ).loc main_arg1)) (m ((c.tc : Thread nD τ).loc main_arg2))
            (m ((c.tc : Thread nD τ).loc main_arg3)) (row (m ((c.tc : Thread nD τ).loc main_arg4)))
            (m ((c.tc : Thread nD τ).loc main_arg5)) (row (m ((c.tc : Thread nD τ).loc main_arg6)))
            (m ((c.tc : Thread nD τ).loc main_arg7)) (row (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v44).trans ((out_eq _).trans rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.RunOut

end
-- ==== Proof.KernelBody.lean ====
/-
  What the three kernel bodies compute, at the extended reals, as functions of the blocks they load: a block of 5000
  rows `a` of the aggregated features, the whole weight matrix `W` and the one-row bias `b`.  The first two bodies
  store `max (a W + b, 0)`; the third stores the row-wise log-softmax of `a W + b`.  (A change of float format is the
  identity at the extended reals, a cast to the same shape is the identity, and a matmul into a zero accumulator is the
  matrix product.)
-/
import proofs.«119418_j73332271612561_1_alg».proof.Proof.Gen.KernelIdeal.Skeleton
import proofs.«119418_j73332271612561_1_alg».proof.Proof.Spec

noncomputable section

namespace Cert.KernelIdeal.Body

open Cert.KernelIdeal Cert.KernelIdeal.Gen Idealize.ShloMosaic Idealize.ShloMosaic.ValueIdx
open Cert.Dense Cert.BiasRow Cert.LogSoftmax Cert.Net

/-- The first body stores `max (a W + b, 0)`. -/
theorem pay0 (a : Vec Ideal S5000x128 .f32) (W : Vec Ideal S128x128 .f32) (b : Vec Ideal S1x128 .f32) :
    k0_pay1 (F := Ideal) a W b = act a W b := by
  unfold k0_pay1
  dsimp only
  rw [shapeCast_self, shapeCast_self, matmul_zero_eq_mm _ rfl rfl rfl rfl rfl rfl, vecReluBias]
  rfl

/-- The second body stores `max (a W + b, 0)`. -/
theorem pay1 (a : Vec Ideal S5000x128 .f32) (W : Vec Ideal S128x128 .f32) (b : Vec Ideal S1x128 .f32) :
    k1_pay1 (F := Ideal) a W b = act a W b := by
  unfold k1_pay1
  dsimp only
  rw [shapeCast_self, shapeCast_self, matmul_zero_eq_mm _ rfl rfl rfl rfl rfl rfl, vecReluBias]
  rfl

/-- The third body's affine part: `a W + b`. -/
def logits (a : Vec Ideal S5000x128 .f32) (W : Vec Ideal S128x40 .f32) (b : Vec Ideal S1x40 .f32) : FVec Ideal S5000x40 .f32 :=
  addf (matmul dot_S5000x128_S128x40_S5000x40_1_0_0_1_n_n none
      (truncf .bf16 (shapeCast S5000x128 a shapeCasts_S5000x128_S5000x128 : FVec Ideal S5000x128 .f32) bitsLt_bf16_f32)
      (truncf .bf16 (W : FVec Ideal S128x40 .f32) bitsLt_bf16_f32)
      (constant S5000x40 .f32 0x00000000#32)) (broadcastTo S5000x40 (shapeCast S1x40 b shapeCasts_S1x40_S1x40) broadcasts_S1x40_S5000x40)

theorem logits_eq (a : Vec Ideal S5000x128 .f32) (W : Vec Ideal S128x40 .f32) (b : Vec Ideal S1x40 .f32) :
    logits a W b = addRow (mm a W) b := by
  unfold logits
  rw [shapeCast_self, shapeCast_self, matmul_zero_eq_mm _ rfl rfl rfl rfl rfl rfl, vecAddRow]
  rfl

/-- Every row's maximum, along the row. -/
def colMax (Y : FVec Ideal S5000x40 .f32) : FVec Ideal S5000x40 .f32 :=
  broadcastTo S5000x40 (shapeCast S5000x1 (multiReduction .maximumf [1] S5000 Y 0xFF800000#32 reduces_S5000x40_S5000 (.inl rfl) rfl)
    shapeCasts_S5000_S5000x1) broadcasts_S5000x1_S5000x40

/-- The logarithm of every row's sum, along the row. -/
def colLogSum (E : FVec Ideal S5000x40 .f32) : FVec Ideal S5000x40 .f32 :=
  broadcastTo S5000x40 (log (shapeCast S5000x1 (multiReduction .add [1] S5000 E 0x00000000#32 reduces_S5000x40_S5000 (.inl rfl) rfl)
    shapeCasts_S5000_S5000x1)) broadcasts_S5000x1_S5000x40

/-- The third body as those parts. -/
theorem pay2_parts (a : Vec Ideal S5000x128 .f32) (W : Vec Ideal S128x40 .f32) (b : Vec Ideal S1x40 .f32) :
    k2_pay1 (F := Ideal) a W b
      = subf (subf (logits a W b) (colMax (logits a W b))) (colLogSum (exp (subf (logits a W b) (colMax (logits a W b))))) := rfl

/-- The third body stores the row-wise log-softmax of `a W + b`. -/
theorem pay2 (a : Vec Ideal S5000x128 .f32) (W : Vec Ideal S128x40 .f32) (b : Vec Ideal S1x40 .f32) :
    k2_pay1 (F := Ideal) a W b = lsm (addRow (mm a W) b) := by
  rw [pay2_parts, ← logits_eq]
  exact lsm_of_parts (logits a W b) (colMax (logits a W b)) _
    (fun p k => vecColMax (logits a W b) reduces_S5000x40_S5000 (.inl rfl) rfl shapeCasts_S5000_S5000x1 broadcasts_S5000x1_S5000x40 p k)
    (fun p k => vecColLogSum _ reduces_S5000x40_S5000 (.inl rfl) rfl shapeCasts_S5000_S5000x1 broadcasts_S5000x1_S5000x40 p k)

end Cert.KernelIdeal.Body

end
-- ==== Proof.LibBlockRows.lean ====
/-
  A block of rows of a layer is the layer of the block of rows.

  An entry of the rectified affine layer `max (A S + b, 0)`, and of the row-wise log-softmax of `A S + b`, depends on
  one row of `A` only.  So an entry `j` of the layer of `A'` is the entry `i` of the layer of `A` whenever row `j₀` of
  `A'` is row `i₀` of `A` and the two entries lie in the same column — the relation between a block of rows a kernel
  works on and the whole array.
-/
import proofs.«119418_j73332271612561_1_alg».proof.Proof.LibDense
import proofs.«119418_j73332271612561_1_alg».proof.Proof.LibBiasRow
import proofs.«119418_j73332271612561_1_alg».proof.Proof.LibLogSoftmax

noncomputable section

namespace Cert.BlockRows

open Idealize.ShloMosaic Idealize.ShloMosaic.ValueIdx Cert.Dense Cert.BiasRow Cert.LogSoftmax

/-- The rectified affine layer, at an entry of a block of rows. -/
theorem act_block {M M' K N : ℕ} (A : Mat M K) (A' : Mat M' K) (S : Mat K N) (b : Mat 1 N)
    (j : (⟨2, ![M', N]⟩ : Shape).Idx) (i : (⟨2, ![M, N]⟩ : Shape).Idx)
    (hA : ∀ k : Fin K, A' (ix2 (c0 j) k) = A (ix2 (c0 i) k)) (hc : (j 1).val = (i 1).val) :
    act A' S b j = act A S b i := by
  have hq : c1 j = c1 i := Fin.ext hc
  unfold act
  rw [mm_at A S A' S j i hA (fun k => by rw [hq]), hq]

/-- The row-wise log-softmax of the affine layer, at an entry of a block of rows. -/
theorem lsm_block {M M' K N : ℕ} (A : Mat M K) (A' : Mat M' K) (S : Mat K N) (b : Mat 1 N)
    (j : (⟨2, ![M', N]⟩ : Shape).Idx) (i : (⟨2, ![M, N]⟩ : Shape).Idx)
    (hA : ∀ k : Fin K, A' (ix2 (c0 j) k) = A (ix2 (c0 i) k)) (hc : (j 1).val = (i 1).val) :
    lsm (addRow (mm A' S) b) j = lsm (addRow (mm A S) b) i := by
  obtain ⟨p', q', rfl⟩ : ∃ (p' : Fin M') (q' : Fin N), j = ix2 p' q' := ⟨j 0, j 1, eq_ix2 j⟩
  obtain ⟨p, q, rfl⟩ : ∃ (p : Fin M) (q : Fin N), i = ix2 p q := ⟨i 0, i 1, eq_ix2 i⟩
  obtain rfl : q' = q := Fin.ext hc
  refine lsm_rows (addRow (mm A S) b) (addRow (mm A' S) b) p p' (fun k => ?_) q'
  rw [addRow_apply, addRow_apply, mm_rows A A' S p p' hA k]

end Cert.BlockRows

end
-- ==== Proof.KernelRegions.lean ====
/-
  Each kernel region's output array as one function of the arrays the region finds.

  A region runs its body at ten grid points; at point `t` the body loads rows `5000 t … 5000 t + 4999` of the aggregated
  features, the whole weight matrix and the whole one-row bias, and stores its layer of them into rows
  `5000 t … 5000 t + 4999` of the output.  An entry of a layer depends on one row of the features only, so what point `t`
  writes back is block `t` of the layer of the WHOLE feature array; the ten blocks tile the output, which therefore ends
  holding that layer.  Stated at any contents `V` of the buffers at the region's entry.
-/
import proofs.«119418_j73332271612561_1_alg».proof.Proof.Gen.KernelIdeal.Frame
import proofs.«119418_j73332271612561_1_alg».proof.Proof.KernelBody
import proofs.«119418_j73332271612561_1_alg».proof.Proof.LibBlockRows
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.ShloMosaic.ValueIdx Idealize.SL.Sem
open Idealize.ShloMosaic.Pipeline (Dat)
open Cert.Dense Cert.BiasRow Cert.LogSoftmax Cert.BlockRows Cert.Net

variable (V : (c : Dev nD) → (b : Ref sig .tc) → Buf (Elt Ideal) ((c : Thread nD τ).loc b))

theorem hz : (![0, 0] : Fin 2 → Nat) = fun _ => 0 := funext fun a => by fin_cases a <;> rfl

/-! ## Region 0: the first layer, `max (a W₁ + b₁, 0)` -/

/-- The printed index maps, decided over the grid: the row-tiled windows sit at block `(t, 0)`, the weights and the bias at
    block `(0, 0)`. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input block at point `t` is rows `5000 t … 5000 t + 4999` of the aggregated array. -/
theorem in0_apply (c : Dev nD) (t : Fin cfg0.N) (x : S5000x128.Idx) (k : S50000x128.Idx)
    (hk0 : (k 0).val = 5000 * t.val + (x 0).val) (hk1 : (k 1).val = (x 1).val) :
    (iblk0 V c 0 t : Vec Ideal S5000x128 .f32) x = (V c main_v9 : S50000x128.Idx → EReal) k := by
  obtain ⟨e0, e1, -⟩ := idx0 t
  unfold iblk0
  rw [View.read_apply]
  show (V c main_v9 : S50000x128.Idx → EReal) _ = V c main_v9 k
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The weight window's block at every point is the whole weight array. -/
theorem w0_eq (c : Dev nD) (t : Fin cfg0.N) :
    (iblk0 V c 1 t : Vec Ideal S128x128 .f32) = (V c main_arg3 : S128x128.Idx → EReal) := by
  obtain ⟨-, -, e2, e3, -⟩ := idx0 t
  funext x
  unfold iblk0
  rw [View.read_apply]
  show (V c main_arg3 : S128x128.Idx → EReal) _ = V c main_arg3 x
  congr 1
  funext a
  apply Fin.ext
  match a with
  | ⟨0, _⟩ => show win0_1.index t 0 * 128 + 1 * (x 0).val = (x 0).val; rw [e2]; omega
  | ⟨1, _⟩ => show win0_1.index t 1 * 128 + 1 * (x 1).val = (x 1).val; rw [e3]; omega

/-- The bias window's block at every point is the whole one-row bias. -/
theorem b0_eq (c : Dev nD) (t : Fin cfg0.N) :
    (iblk0 V c 2 t : Vec Ideal S1x128 .f32) = (V c main_v10 : S1x128.Idx → EReal) := by
  obtain ⟨-, -, -, -, e4, e5, -⟩ := idx0 t
  funext x
  unfold iblk0
  rw [View.read_apply]
  show (V c main_v10 : S1x128.Idx → EReal) _ = V c main_v10 x
  congr 1
  funext a
  apply Fin.ext
  match a with
  | ⟨0, _⟩ => show win0_2.index t 0 * 1 + 1 * (x 0).val = (x 0).val; rw [e4]; omega
  | ⟨1, _⟩ => show win0_2.index t 1 * 128 + 1 * (x 1).val = (x 1).val; rw [e5]; omega

/-- What point `t` writes back is block `t` of the layer of the arrays the region finds. -/
theorem flushed0 (c : Dev nD) (t : Fin cfg0.N) :
    (dat0 (F := Ideal) V c).flushed 3 t
      = ((cfg0.win 3).blk t).view.read (Elt Ideal) (act (V c main_v9) (V c main_arg3) (V c main_v10) : S50000x128.Idx → EReal) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  rw [Body.pay0, w0_eq, b0_eq]
  obtain ⟨-, -, -, -, -, -, e6, e7⟩ := idx0 t
  funext j
  show (act (iblk0 V c 0 t) (V c main_arg3) (V c main_v10) : S5000x128.Idx → EReal) j
    = (act (V c main_v9) (V c main_arg3) (V c main_v10) : S50000x128.Idx → EReal) (((cfg0.win 3).blk t).view.emb j)
  refine act_block (V c main_v9) (iblk0 V c 0 t) (V c main_arg3) (V c main_v10) j _ (fun k => ?_) ?_
  · refine in0_apply V c t _ _ ?_ rfl
    show win0_3.index t 0 * 5000 + 1 * (j 0).val = 5000 * t.val + (j 0).val
    rw [e6]; omega
  · show (j 1).val = win0_3.index t 1 * 128 + 1 * (j 1).val
    rw [e7]; omega

/-- An index of the output array is in point `t`'s block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v11).slice (win0_3.rect t)).set ↔ _
  rw [View.set_slice_whole, Rect.mem_set_unit]
  exact Iff.rfl

/-- The ten blocks of 5000 rows tile the output array: row `r` is in the block of point `r / 5000`. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  have hlt : (i 0).val / 5000 < cfg0.N := by rw [hN]; omega
  obtain ⟨-, -, -, -, -, -, e6, e7⟩ := idx0 ⟨(i 0).val / 5000, hlt⟩
  refine ⟨⟨(i 0).val / 5000, hlt⟩, flush0_3 _, ?_⟩
  rw [mem_blk0]
  intro a
  match a with
  | ⟨0, _⟩ =>
    show win0_3.index ⟨(i 0).val / 5000, hlt⟩ 0 * 5000 ≤ (i 0).val ∧ (i 0).val < win0_3.index ⟨(i 0).val / 5000, hlt⟩ 0 * 5000 + 5000
    rw [e6]
    show (i 0).val / 5000 * 5000 ≤ (i 0).val ∧ (i 0).val < (i 0).val / 5000 * 5000 + 5000
    omega
  | ⟨1, _⟩ =>
    show win0_3.index ⟨(i 0).val / 5000, hlt⟩ 1 * 128 ≤ (i 1).val ∧ (i 1).val < win0_3.index ⟨(i 0).val / 5000, hlt⟩ 1 * 128 + 128
    rw [e7]
    omega

/-- The region's output array after the run: the layer of the arrays the region finds. -/
theorem arr0 (c : Dev nD) :
    (dat0 (F := Ideal) V c).arrAt 3 cfg0.N = (act (V c main_v9) (V c main_arg3) (V c main_v10) : S50000x128.Idx → EReal) :=
  (dat0 V c).arrAt_eq_of_cover 3 _ (fun t _ => flushed0 V c t) cover0

/-! ## Region 1: the second layer, `max (a Wₘ + bₘ, 0)` -/

/-- The printed index maps, decided over the grid: the row-tiled windows sit at block `(t, 0)`, the weights and the bias at
    block `(0, 0)`. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input block at point `t` is rows `5000 t … 5000 t + 4999` of the aggregated array. -/
theorem in1_apply (c : Dev nD) (t : Fin cfg1.N) (x : S5000x128.Idx) (k : S50000x128.Idx)
    (hk0 : (k 0).val = 5000 * t.val + (x 0).val) (hk1 : (k 1).val = (x 1).val) :
    (iblk1 V c 0 t : Vec Ideal S5000x128 .f32) x = (V c main_v21 : S50000x128.Idx → EReal) k := by
  obtain ⟨e0, e1, -⟩ := idx1 t
  unfold iblk1
  rw [View.read_apply]
  show (V c main_v21 : S50000x128.Idx → EReal) _ = V c main_v21 k
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The weight window's block at every point is the whole weight array. -/
theorem w1_eq (c : Dev nD) (t : Fin cfg1.N) :
    (iblk1 V c 1 t : Vec Ideal S128x128 .f32) = (V c main_arg5 : S128x128.Idx → EReal) := by
  obtain ⟨-, -, e2, e3, -⟩ := idx1 t
  funext x
  unfold iblk1
  rw [View.read_apply]
  show (V c main_arg5 : S128x128.Idx → EReal) _ = V c main_arg5 x
  congr 1
  funext a
  apply Fin.ext
  match a with
  | ⟨0, _⟩ => show win1_1.index t 0 * 128 + 1 * (x 0).val = (x 0).val; rw [e2]; omega
  | ⟨1, _⟩ => show win1_1.index t 1 * 128 + 1 * (x 1).val = (x 1).val; rw [e3]; omega

/-- The bias window's block at every point is the whole one-row bias. -/
theorem b1_eq (c : Dev nD) (t : Fin cfg1.N) :
    (iblk1 V c 2 t : Vec Ideal S1x128 .f32) = (V c main_v22 : S1x128.Idx → EReal) := by
  obtain ⟨-, -, -, -, e4, e5, -⟩ := idx1 t
  funext x
  unfold iblk1
  rw [View.read_apply]
  show (V c main_v22 : S1x128.Idx → EReal) _ = V c main_v22 x
  congr 1
  funext a
  apply Fin.ext
  match a with
  | ⟨0, _⟩ => show win1_2.index t 0 * 1 + 1 * (x 0).val = (x 0).val; rw [e4]; omega
  | ⟨1, _⟩ => show win1_2.index t 1 * 128 + 1 * (x 1).val = (x 1).val; rw [e5]; omega

/-- What point `t` writes back is block `t` of the layer of the arrays the region finds. -/
theorem flushed1 (c : Dev nD) (t : Fin cfg1.N) :
    (dat1 (F := Ideal) V c).flushed 3 t
      = ((cfg1.win 3).blk t).view.read (Elt Ideal) (act (V c main_v21) (V c main_arg5) (V c main_v22) : S50000x128.Idx → EReal) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  rw [Body.pay1, w1_eq, b1_eq]
  obtain ⟨-, -, -, -, -, -, e6, e7⟩ := idx1 t
  funext j
  show (act (iblk1 V c 0 t) (V c main_arg5) (V c main_v22) : S5000x128.Idx → EReal) j
    = (act (V c main_v21) (V c main_arg5) (V c main_v22) : S50000x128.Idx → EReal) (((cfg1.win 3).blk t).view.emb j)
  refine act_block (V c main_v21) (iblk1 V c 0 t) (V c main_arg5) (V c main_v22) j _ (fun k => ?_) ?_
  · refine in1_apply V c t _ _ ?_ rfl
    show win1_3.index t 0 * 5000 + 1 * (j 0).val = 5000 * t.val + (j 0).val
    rw [e6]; omega
  · show (j 1).val = win1_3.index t 1 * 128 + 1 * (j 1).val
    rw [e7]; omega

/-- An index of the output array is in point `t`'s block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v23).slice (win1_3.rect t)).set ↔ _
  rw [View.set_slice_whole, Rect.mem_set_unit]
  exact Iff.rfl

/-- The ten blocks of 5000 rows tile the output array: row `r` is in the block of point `r / 5000`. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  have hlt : (i 0).val / 5000 < cfg1.N := by rw [hN]; omega
  obtain ⟨-, -, -, -, -, -, e6, e7⟩ := idx1 ⟨(i 0).val / 5000, hlt⟩
  refine ⟨⟨(i 0).val / 5000, hlt⟩, flush1_3 _, ?_⟩
  rw [mem_blk1]
  intro a
  match a with
  | ⟨0, _⟩ =>
    show win1_3.index ⟨(i 0).val / 5000, hlt⟩ 0 * 5000 ≤ (i 0).val ∧ (i 0).val < win1_3.index ⟨(i 0).val / 5000, hlt⟩ 0 * 5000 + 5000
    rw [e6]
    show (i 0).val / 5000 * 5000 ≤ (i 0).val ∧ (i 0).val < (i 0).val / 5000 * 5000 + 5000
    omega
  | ⟨1, _⟩ =>
    show win1_3.index ⟨(i 0).val / 5000, hlt⟩ 1 * 128 ≤ (i 1).val ∧ (i 1).val < win1_3.index ⟨(i 0).val / 5000, hlt⟩ 1 * 128 + 128
    rw [e7]
    omega

/-- The region's output array after the run: the layer of the arrays the region finds. -/
theorem arr1 (c : Dev nD) :
    (dat1 (F := Ideal) V c).arrAt 3 cfg1.N = (act (V c main_v21) (V c main_arg5) (V c main_v22) : S50000x128.Idx → EReal) :=
  (dat1 V c).arrAt_eq_of_cover 3 _ (fun t _ => flushed1 V c t) cover1

/-! ## Region 2: the third layer, the row-wise log-softmax of `a W₂ + b₂` -/

/-- The printed index maps, decided over the grid: the row-tiled windows sit at block `(t, 0)`, the weights and the bias at
    block `(0, 0)`. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The input block at point `t` is rows `5000 t … 5000 t + 4999` of the aggregated array. -/
theorem in2_apply (c : Dev nD) (t : Fin cfg2.N) (x : S5000x128.Idx) (k : S50000x128.Idx)
    (hk0 : (k 0).val = 5000 * t.val + (x 0).val) (hk1 : (k 1).val = (x 1).val) :
    (iblk2 V c 0 t : Vec Ideal S5000x128 .f32) x = (V c main_v33 : S50000x128.Idx → EReal) k := by
  obtain ⟨e0, e1, -⟩ := idx2 t
  unfold iblk2
  rw [View.read_apply]
  show (V c main_v33 : S50000x128.Idx → EReal) _ = V c main_v33 k
  congr 1
  funext a
  apply Fin.ext
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- The weight window's block at every point is the whole weight array. -/
theorem w2_eq (c : Dev nD) (t : Fin cfg2.N) :
    (iblk2 V c 1 t : Vec Ideal S128x40 .f32) = (V c main_arg7 : S128x40.Idx → EReal) := by
  obtain ⟨-, -, e2, e3, -⟩ := idx2 t
  funext x
  unfold iblk2
  rw [View.read_apply]
  show (V c main_arg7 : S128x40.Idx → EReal) _ = V c main_arg7 x
  congr 1
  funext a
  apply Fin.ext
  match a with
  | ⟨0, _⟩ => show win2_1.index t 0 * 128 + 1 * (x 0).val = (x 0).val; rw [e2]; omega
  | ⟨1, _⟩ => show win2_1.index t 1 * 40 + 1 * (x 1).val = (x 1).val; rw [e3]; omega

/-- The bias window's block at every point is the whole one-row bias. -/
theorem b2_eq (c : Dev nD) (t : Fin cfg2.N) :
    (iblk2 V c 2 t : Vec Ideal S1x40 .f32) = (V c main_v34 : S1x40.Idx → EReal) := by
  obtain ⟨-, -, -, -, e4, e5, -⟩ := idx2 t
  funext x
  unfold iblk2
  rw [View.read_apply]
  show (V c main_v34 : S1x40.Idx → EReal) _ = V c main_v34 x
  congr 1
  funext a
  apply Fin.ext
  match a with
  | ⟨0, _⟩ => show win2_2.index t 0 * 1 + 1 * (x 0).val = (x 0).val; rw [e4]; omega
  | ⟨1, _⟩ => show win2_2.index t 1 * 40 + 1 * (x 1).val = (x 1).val; rw [e5]; omega

/-- What point `t` writes back is block `t` of the layer of the arrays the region finds. -/
theorem flushed2 (c : Dev nD) (t : Fin cfg2.N) :
    (dat2 (F := Ideal) V c).flushed 3 t
      = ((cfg2.win 3).blk t).view.read (Elt Ideal) (lsm (addRow (mm (V c main_v33) (V c main_arg7)) (V c main_v34)) : S50000x40.Idx → EReal) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x40) hz, View.ld_unit_zero (S := S1x40) hz]
  rw [Body.pay2, w2_eq, b2_eq]
  obtain ⟨-, -, -, -, -, -, e6, e7⟩ := idx2 t
  funext j
  show (lsm (addRow (mm (iblk2 V c 0 t) (V c main_arg7)) (V c main_v34)) : S5000x40.Idx → EReal) j
    = (lsm (addRow (mm (V c main_v33) (V c main_arg7)) (V c main_v34)) : S50000x40.Idx → EReal) (((cfg2.win 3).blk t).view.emb j)
  refine lsm_block (V c main_v33) (iblk2 V c 0 t) (V c main_arg7) (V c main_v34) j _ (fun k => ?_) ?_
  · refine in2_apply V c t _ _ ?_ rfl
    show win2_3.index t 0 * 5000 + 1 * (j 0).val = 5000 * t.val + (j 0).val
    rw [e6]; omega
  · show (j 1).val = win2_3.index t 1 * 40 + 1 * (j 1).val
    rw [e7]; omega

/-- An index of the output array is in point `t`'s block iff each coordinate is in the block's range on its axis. -/
theorem mem_blk2 (t : Fin cfg2.N) (i : S50000x40.Idx) :
    i ∈ ((cfg2.win 3).blk t).view.set ↔ ∀ a : Fin 2, win2_3.index t a * S5000x40.size a ≤ (i a).val ∧ (i a).val < win2_3.index t a * S5000x40.size a + S5000x40.size a := by
  show i ∈ ((View.whole main_v35).slice (win2_3.rect t)).set ↔ _
  rw [View.set_slice_whole, Rect.mem_set_unit]
  exact Iff.rfl

/-- The ten blocks of 5000 rows tile the output array: row `r` is in the block of point `r / 5000`. -/
theorem cover2 (i : S50000x40.Idx) :
    ∃ t : Fin cfg2.N, (cfg2.win 3).flush t = true ∧ i ∈ ((cfg2.win 3).blk t).view.set := by
  have hi0 : (i 0).val < 50000 := (i 0).isLt
  have hi1 : (i 1).val < 40 := (i 1).isLt
  have hN : cfg2.N = 10 := N_2
  have hlt : (i 0).val / 5000 < cfg2.N := by rw [hN]; omega
  obtain ⟨-, -, -, -, -, -, e6, e7⟩ := idx2 ⟨(i 0).val / 5000, hlt⟩
  refine ⟨⟨(i 0).val / 5000, hlt⟩, flush2_3 _, ?_⟩
  rw [mem_blk2]
  intro a
  match a with
  | ⟨0, _⟩ =>
    show win2_3.index ⟨(i 0).val / 5000, hlt⟩ 0 * 5000 ≤ (i 0).val ∧ (i 0).val < win2_3.index ⟨(i 0).val / 5000, hlt⟩ 0 * 5000 + 5000
    rw [e6]
    show (i 0).val / 5000 * 5000 ≤ (i 0).val ∧ (i 0).val < (i 0).val / 5000 * 5000 + 5000
    omega
  | ⟨1, _⟩ =>
    show win2_3.index ⟨(i 0).val / 5000, hlt⟩ 1 * 40 ≤ (i 1).val ∧ (i 1).val < win2_3.index ⟨(i 0).val / 5000, hlt⟩ 1 * 40 + 40
    rw [e7]
    omega

/-- The region's output array after the run: the layer of the arrays the region finds. -/
theorem arr2 (c : Dev nD) :
    (dat2 (F := Ideal) V c).arrAt 3 cfg2.N = (lsm (addRow (mm (V c main_v33) (V c main_arg7)) (V c main_v34)) : S50000x40.Idx → EReal) :=
  (dat2 V c).arrAt_eq_of_cover 3 _ (fun t _ => flushed2 V c t) cover2

end Cert.KernelIdeal.Regions

end
-- ==== Proof.KernelRun.lean ====
/-
  The idealized kernel's run with its result named.  @main is three kernel regions among stretches of host operations;
  at every boundary between them the buffer contents are a fold from the launch memory (`Gen.W1` … `Gen.W6`), and
  every weakly fair execution terminates with every unscoped buffer at the last boundary's contents.  Read at the
  result buffer, that is the run below: the result at `Gen.W6`, the arguments as launched.
-/
import proofs.«119418_j73332271612561_1_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
theorem run_out : θ_run defs (onTc (τ := τ) (main (F := F))) ⟨m, fun _ => 0, ρ⟩ (fun r => ∀ c : Dev nD,
      r.2.mem ((c.tc : Thread nD τ).loc main_v35) = W6 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v35 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.RunOut

end
-- ==== Proof.KernelValue.lean ====
/-
  The idealized kernel's result as the network of its arguments.

  The buffer contents at the boundaries of @main's segments are folds from the launch memory.  Every host stretch
  aggregates the current features over the edges and lays the layer's bias out as one row, and leaves the arguments
  alone; every region leaves its output array at its layer of the arrays it finds and every other buffer alone.  Read
  backwards from the result buffer, the last boundary's contents are the three layers of `Cert.Net.net`.
-/
import proofs.«119418_j73332271612561_1_alg».proof.Proof.Gen.KernelIdeal.Frame
import proofs.«119418_j73332271612561_1_alg».proof.Proof.KernelRegions
import proofs.«119418_j73332271612561_1_alg».proof.Proof.KernelRun
import Idealize.ShloMosaic.Lib.StableHlo.Run

set_option maxRecDepth 16384

noncomputable section

namespace Cert.KernelIdeal.Out

open Cert.KernelIdeal Cert.KernelIdeal.Gen Idealize.ShloMosaic Idealize.ShloMosaic.TcCoe Idealize.ShloMosaic.ValueIdx Idealize.SL.Sem
open Idealize.ShloMosaic.StableHlo
open Cert.Dense Cert.BiasRow Cert.LogSoftmax Cert.Net

/-- The dimension records and shape facts the kernel's aggregation is printed with. -/
def kerAgg : AggFacts where
  gat := gather_S50000x128_S800000x1_S800000x128_1_0_n_n_0_1_1128
  sca := scatter_S50000x128_S800000x1_S800000x128_1_0_0_1
  hbE := bcast_S_S800000
  hbC := bcast_S800000_S800000x1_0
  hbN := bcast_S_S50000x128

/-! ## The host stretches, applied to any buffer contents -/

section Host

/-- Host stretch 0: the aggregation of `main_arg0` over the edges. -/
theorem h0_agg (Vv : Valuation τ sig (Elt Ideal)) :
    StableHlo.after (hostOps0 (F := Ideal)) Vv (Proc.devRef .tc main_v9)
      = agg kerAgg (Vv (Proc.devRef .tc main_arg0)) (Vv (Proc.devRef .tc main_arg1)) (Vv (Proc.devRef .tc main_arg2)) := by
  unfold hostOps0
  after_results_simp
  rfl

/-- Host stretch 0: the bias vector laid out as one row. -/
theorem h0_bias (Vv : Valuation τ sig (Elt Ideal)) :
    StableHlo.after (hostOps0 (F := Ideal)) Vv (Proc.devRef .tc main_v10)
      = row (Vv (Proc.devRef .tc main_arg4)) := by
  unfold hostOps0
  after_results_simp
  exact shapeCast_row _ _

theorem h0_keep_arg1 (Vv : Valuation τ sig (Elt Ideal)) :
    StableHlo.after (hostOps0 (F := Ideal)) Vv (Proc.devRef .tc main_arg1) = Vv (Proc.devRef .tc main_arg1) := by
  unfold hostOps0
  after_results_simp

theorem h0_keep_arg2 (Vv : Valuation τ sig (Elt Ideal)) :
    StableHlo.after (hostOps0 (F := Ideal)) Vv (Proc.devRef .tc main_arg2) = Vv (Proc.devRef .tc main_arg2) := by
  unfold hostOps0
  after_results_simp

theorem h0_keep_arg3 (Vv : Valuation τ sig (Elt Ideal)) :
    StableHlo.after (hostOps0 (F := Ideal)) Vv (Proc.devRef .tc main_arg3) = Vv (Proc.devRef .tc main_arg3) := by
  unfold hostOps0
  after_results_simp

theorem h0_keep_arg5 (Vv : Valuation τ sig (Elt Ideal)) :
    StableHlo.after (hostOps0 (F := Ideal)) Vv (Proc.devRef .tc main_arg5) = Vv (Proc.devRef .tc main_arg5) := by
  unfold hostOps0
  after_results_simp

theorem h0_keep_arg6 (Vv : Valuation τ sig (Elt Ideal)) :
    StableHlo.after (hostOps0 (F := Ideal)) Vv (Proc.devRef .tc main_arg6) = Vv (Proc.devRef .tc main_arg6) := by
  unfold hostOps0
  after_results_simp

theorem h0_keep_arg7 (Vv : Valuation τ sig (Elt Ideal)) :
    StableHlo.after (hostOps0 (F := Ideal)) Vv (Proc.devRef .tc main_arg7) = Vv (Proc.devRef .tc main_arg7) := by
  unfold hostOps0
  after_results_simp

theorem h0_keep_arg8 (Vv : Valuation τ sig (Elt Ideal)) :
    StableHlo.after (hostOps0 (F := Ideal)) Vv (Proc.devRef .tc main_arg8) = Vv (Proc.devRef .tc main_arg8) := by
  unfold hostOps0
  after_results_simp

/-- Host stretch 1: the aggregation of `main_v11` over the edges. -/
theorem h1_agg (Vv : Valuation τ sig (Elt Ideal)) :
    StableHlo.after (hostOps1 (F := Ideal)) Vv (Proc.devRef .tc main_v21)
      = agg kerAgg (Vv (Proc.devRef .tc main_v11)) (Vv (Proc.devRef .tc main_arg1)) (Vv (Proc.devRef .tc main_arg2)) := by
  unfold hostOps1
  after_results_simp
  rfl

/-- Host stretch 1: the bias vector laid out as one row. -/
theorem h1_bias (Vv : Valuation τ sig (Elt Ideal)) :
    StableHlo.after (hostOps1 (F := Ideal)) Vv (Proc.devRef .tc main_v22)
      = row (Vv (Proc.devRef .tc main_arg6)) := by
  unfold hostOps1
  after_results_simp
  exact shapeCast_row _ _

theorem h1_keep_arg1 (Vv : Valuation τ sig (Elt Ideal)) :
    StableHlo.after (hostOps1 (F := Ideal)) Vv (Proc.devRef .tc main_arg1) = Vv (Proc.devRef .tc main_arg1) := by
  unfold hostOps1
  after_results_simp

theorem h1_keep_arg2 (Vv : Valuation τ sig (Elt Ideal)) :
    StableHlo.after (hostOps1 (F := Ideal)) Vv (Proc.devRef .tc main_arg2) = Vv (Proc.devRef .tc main_arg2) := by
  unfold hostOps1
  after_results_simp

theorem h1_keep_arg5 (Vv : Valuation τ sig (Elt Ideal)) :
    StableHlo.after (hostOps1 (F := Ideal)) Vv (Proc.devRef .tc main_arg5) = Vv (Proc.devRef .tc main_arg5) := by
  unfold hostOps1
  after_results_simp

theorem h1_keep_arg7 (Vv : Valuation τ sig (Elt Ideal)) :
    StableHlo.after (hostOps1 (F := Ideal)) Vv (Proc.devRef .tc main_arg7) = Vv (Proc.devRef .tc main_arg7) := by
  unfold hostOps1
  after_results_simp

theorem h1_keep_arg8 (Vv : Valuation τ sig (Elt Ideal)) :
    StableHlo.after (hostOps1 (F := Ideal)) Vv (Proc.devRef .tc main_arg8) = Vv (Proc.devRef .tc main_arg8) := by
  unfold hostOps1
  after_results_simp

/-- Host stretch 2: the aggregation of `main_v23` over the edges. -/
theorem h2_agg (Vv : Valuation τ sig (Elt Ideal)) :
    StableHlo.after (hostOps2 (F := Ideal)) Vv (Proc.devRef .tc main_v33)
      = agg kerAgg (Vv (Proc.devRef .tc main_v23)) (Vv (Proc.devRef .tc main_arg1)) (Vv (Proc.devRef .tc main_arg2)) := by
  unfold hostOps2
  after_results_simp
  rfl

/-- Host stretch 2: the bias vector laid out as one row. -/
theorem h2_bias (Vv : Valuation τ sig (Elt Ideal)) :
    StableHlo.after (hostOps2 (F := Ideal)) Vv (Proc.devRef .tc main_v34)
      = row (Vv (Proc.devRef .tc main_arg8)) := by
  unfold hostOps2
  after_results_simp
  exact shapeCast_row _ _

theorem h2_keep_arg7 (Vv : Valuation τ sig (Elt Ideal)) :
    StableHlo.after (hostOps2 (F := Ideal)) Vv (Proc.devRef .tc main_arg7) = Vv (Proc.devRef .tc main_arg7) := by
  unfold hostOps2
  after_results_simp

end Host

/-! ## The boundaries' contents, read back to the launch memory -/

variable (m : (ℓ : Loc nD τ sig) → Buf (Elt Ideal) ℓ) (ρ : Dev nD → PrngReg)

theorem W1_arg1 (c : Dev nD) : W1 m ρ c (Proc.devRef .tc main_arg1) = m ((c : Thread nD τ).loc main_arg1) :=
  (h0_keep_arg1 (W0 m ρ c)).trans rfl
theorem W1_arg2 (c : Dev nD) : W1 m ρ c (Proc.devRef .tc main_arg2) = m ((c : Thread nD τ).loc main_arg2) :=
  (h0_keep_arg2 (W0 m ρ c)).trans rfl
theorem W1_arg3 (c : Dev nD) : W1 m ρ c (Proc.devRef .tc main_arg3) = m ((c : Thread nD τ).loc main_arg3) :=
  (h0_keep_arg3 (W0 m ρ c)).trans rfl
theorem W1_arg5 (c : Dev nD) : W1 m ρ c (Proc.devRef .tc main_arg5) = m ((c : Thread nD τ).loc main_arg5) :=
  (h0_keep_arg5 (W0 m ρ c)).trans rfl
theorem W1_arg6 (c : Dev nD) : W1 m ρ c (Proc.devRef .tc main_arg6) = m ((c : Thread nD τ).loc main_arg6) :=
  (h0_keep_arg6 (W0 m ρ c)).trans rfl
theorem W1_arg7 (c : Dev nD) : W1 m ρ c (Proc.devRef .tc main_arg7) = m ((c : Thread nD τ).loc main_arg7) :=
  (h0_keep_arg7 (W0 m ρ c)).trans rfl
theorem W1_arg8 (c : Dev nD) : W1 m ρ c (Proc.devRef .tc main_arg8) = m ((c : Thread nD τ).loc main_arg8) :=
  (h0_keep_arg8 (W0 m ρ c)).trans rfl

theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)

/-- The first hidden array, after region 0. -/
theorem W2_hidden (c : Dev nD) :
    W2 m ρ c (Proc.devRef .tc main_v11)
      = act (agg kerAgg (m ((c : Thread nD τ).loc main_arg0)) (m ((c : Thread nD τ).loc main_arg1)) (m ((c : Thread nD τ).loc main_arg2)))
          (m ((c : Thread nD τ).loc main_arg3)) (row (m ((c : Thread nD τ).loc main_arg4))) := by
  refine (W2_arr m ρ c 3).trans ((Regions.arr0 (V1 m ρ) c).trans ?_)
  show act (W1 m ρ c (Proc.devRef .tc main_v9)) (W1 m ρ c (Proc.devRef .tc main_arg3)) (W1 m ρ c (Proc.devRef .tc main_v10)) = _
  rw [W1_arg3, show W1 m ρ c (Proc.devRef .tc main_v9) = _ from h0_agg (W0 m ρ c), show W1 m ρ c (Proc.devRef .tc main_v10) = _ from h0_bias (W0 m ρ c)]

theorem W4_arg1 (c : Dev nD) : W4 m ρ c (Proc.devRef .tc main_arg1) = m ((c : Thread nD τ).loc main_arg1) :=
  (W4_of_ne m ρ c main_arg1 (by decide)).trans ((h1_keep_arg1 (W2 m ρ c)).trans (W2_arg1 m ρ c))
theorem W4_arg2 (c : Dev nD) : W4 m ρ c (Proc.devRef .tc main_arg2) = m ((c : Thread nD τ).loc main_arg2) :=
  (W4_of_ne m ρ c main_arg2 (by decide)).trans ((h1_keep_arg2 (W2 m ρ c)).trans (W2_arg2 m ρ c))
theorem W4_arg7 (c : Dev nD) : W4 m ρ c (Proc.devRef .tc main_arg7) = m ((c : Thread nD τ).loc main_arg7) :=
  (W4_of_ne m ρ c main_arg7 (by decide)).trans ((h1_keep_arg7 (W2 m ρ c)).trans (W2_arg7 m ρ c))
theorem W4_arg8 (c : Dev nD) : W4 m ρ c (Proc.devRef .tc main_arg8) = m ((c : Thread nD τ).loc main_arg8) :=
  (W4_of_ne m ρ c main_arg8 (by decide)).trans ((h1_keep_arg8 (W2 m ρ c)).trans (W2_arg8 m ρ c))

/-- The second hidden array, after region 1. -/
theorem W4_hidden (c : Dev nD) :
    W4 m ρ c (Proc.devRef .tc main_v23)
      = act (agg kerAgg (W2 m ρ c (Proc.devRef .tc main_v11)) (m ((c : Thread nD τ).loc main_arg1)) (m ((c : Thread nD τ).loc main_arg2)))
          (m ((c : Thread nD τ).loc main_arg5)) (row (m ((c : Thread nD τ).loc main_arg6))) := by
  refine (W4_arr m ρ c 3).trans ((Regions.arr1 (V3 m ρ) c).trans ?_)
  show act (W3 m ρ c (Proc.devRef .tc main_v21)) (W3 m ρ c (Proc.devRef .tc main_arg5)) (W3 m ρ c (Proc.devRef .tc main_v22)) = _
  rw [show W3 m ρ c (Proc.devRef .tc main_v21) = _ from h1_agg (W2 m ρ c), show W3 m ρ c (Proc.devRef .tc main_v22) = _ from h1_bias (W2 m ρ c),
    show W3 m ρ c (Proc.devRef .tc main_arg5) = _ from h1_keep_arg5 (W2 m ρ c), W2_arg1, W2_arg2, W2_arg5, W2_arg6]

/-- The result array, after region 2. -/
theorem W6_result (c : Dev nD) :
    W6 m ρ c (Proc.devRef .tc main_v35)
      = lsm (addRow (mm (agg kerAgg (W4 m ρ c (Proc.devRef .tc main_v23)) (m ((c : Thread nD τ).loc main_arg1)) (m ((c : Thread nD τ).loc main_arg2)))
          (m ((c : Thread nD τ).loc main_arg7))) (row (m ((c : Thread nD τ).loc main_arg8)))) := by
  refine (W6_arr m ρ c 3).trans ((Regions.arr2 (V5 m ρ) c).trans ?_)
  show lsm (addRow (mm (W5 m ρ c (Proc.devRef .tc main_v33)) (W5 m ρ c (Proc.devRef .tc main_arg7))) (W5 m ρ c (Proc.devRef .tc main_v34))) = _
  rw [show W5 m ρ c (Proc.devRef .tc main_v33) = _ from h2_agg (W4 m ρ c), show W5 m ρ c (Proc.devRef .tc main_v34) = _ from h2_bias (W4 m ρ c),
    show W5 m ρ c (Proc.devRef .tc main_arg7) = _ from h2_keep_arg7 (W4 m ρ c), W4_arg1, W4_arg2, W4_arg7, W4_arg8]

/-- The result buffer at the last boundary is the network of the arguments. -/
theorem out_eq (c : Dev nD) :
    W6 m ρ c (Proc.devRef .tc main_v35)
      = net kerAgg (m ((c : Thread nD τ).loc main_arg0)) (m ((c : Thread nD τ).loc main_arg1)) (m ((c : Thread nD τ).loc main_arg2))
          (m ((c : Thread nD τ).loc main_arg3)) (row (m ((c : Thread nD τ).loc main_arg4)))
          (m ((c : Thread nD τ).loc main_arg5)) (row (m ((c : Thread nD τ).loc main_arg6)))
          (m ((c : Thread nD τ).loc main_arg7)) (row (m ((c : Thread nD τ).loc main_arg8))) := by
  rw [W6_result, W4_hidden, W2_hidden]
  rfl

/-- The run, read: the result at the network of the arguments, the arguments unchanged. -/
theorem run : θ_run defs (onTc (τ := τ) (main (F := Ideal))) ⟨m, fun _ => 0, ρ⟩ fun r => ∀ c : Dev nD,
      r.2.mem ((c.tc : Thread nD τ).loc main_v35)
        = net kerAgg (m ((c.tc : Thread nD τ).loc main_arg0)) (m ((c.tc : Thread nD τ).loc main_arg1)) (m ((c.tc : Thread nD τ).loc main_arg2))
            (m ((c.tc : Thread nD τ).loc main_arg3)) (row (m ((c.tc : Thread nD τ).loc main_arg4)))
            (m ((c.tc : Thread nD τ).loc main_arg5)) (row (m ((c.tc : Thread nD τ).loc main_arg6)))
            (m ((c.tc : Thread nD τ).loc main_arg7)) (row (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (out_eq m ρ c), (h c).2⟩) (Cert.KernelIdeal.RunOut.run_out m ρ)

end Cert.KernelIdeal.Out

end
-- ==== Proof.lean ====
/-
  The certificate of a three-layer graph network: a Pallas kernel that runs each layer's dense part (a matrix product, a
  bias and a rectifier; in the last layer a row-wise log-softmax instead) on row blocks of 5000 nodes, against a plain
  jnp reference.  Both programs aggregate neighbour features with the same host gather and scatter-add.  On the
  extended reals a change of float format is the identity, a block-wise product is the whole product, and the two
  spellings of the log-softmax (lane reductions and column broadcasts in the kernel; host reductions, one more maximum
  with −∞ and `broadcast_in_dim` in the reference) are one function: both results are `Cert.Net.net` of the arguments.
  No law used needs finite inputs, so the precondition is never opened.  The idealization rewrote nothing, so
  `preserves` is trivial.
-/
import proofs.«119418_j73332271612561_1_alg».proof.Defs
import proofs.«119418_j73332271612561_1_alg».proof.Proof.Gen.Kernel
import proofs.«119418_j73332271612561_1_alg».proof.Proof.Gen.Kernel.Skeleton
import proofs.«119418_j73332271612561_1_alg».proof.Proof.Gen.Kernel.Launch
import proofs.«119418_j73332271612561_1_alg».proof.Proof.Gen.Kernel.Points
import proofs.«119418_j73332271612561_1_alg».proof.Proof.Gen.Kernel.Frame
import proofs.«119418_j73332271612561_1_alg».proof.Proof.Gen.KernelIdeal
import proofs.«119418_j73332271612561_1_alg».proof.Proof.Gen.KernelIdeal.Skeleton
import proofs.«119418_j73332271612561_1_alg».proof.Proof.Gen.KernelIdeal.Launch
import proofs.«119418_j73332271612561_1_alg».proof.Proof.Gen.KernelIdeal.Points
import proofs.«119418_j73332271612561_1_alg».proof.Proof.Gen.KernelIdeal.Frame
import proofs.«119418_j73332271612561_1_alg».proof.Proof.Gen.ReferenceIdeal
import proofs.«119418_j73332271612561_1_alg».proof.Proof.Gen.Pre_finite_inputs
import proofs.«119418_j73332271612561_1_alg».proof.Proof.RefRun
import proofs.«119418_j73332271612561_1_alg».proof.Proof.KernelValue
import Idealize.ShloMosaic.Adequacy
import Idealize.ShloMosaic.Init

noncomputable section

namespace Cert.Proof

open Idealize.ShloMosaic Idealize.SL.Sem

/-- The two programs' aggregation is printed with the same dimension records and shape facts. -/
theorem agg_facts_eq : Cert.ReferenceIdeal.RunOut.refAgg = Cert.KernelIdeal.Out.kerAgg := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunOut.run m ρ)

/-- Both runs end with the result at the network of the arguments, which agree. -/
theorem algebraic : Cert.algebraic_KernelIdeal_ReferenceIdeal := by
  intro m ρ m' ρ' _ hagree
  refine ⟨_, Cert.KernelIdeal.Out.run m ρ, ?_⟩
  refine (θ_run Cert.ReferenceIdeal.defs _ _).mono (fun _ h c => ⟨(h c).1.trans ?_, (h c).2⟩)
    (Cert.ReferenceIdeal.RunOut.run m' ρ')
  obtain ⟨e0, e1, e2, e3, e4, e5, e6, e7, e8⟩ := hagree c
  rw [e0, e1, e2, e3, e4, e5, e6, e7, e8, agg_facts_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
